-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x28x28 : Shape := ⟨3, ![65536, 28, 28]⟩
abbrev S4 : Shape := ⟨1, ![4]⟩
abbrev S10x784 : Shape := ⟨2, ![10, 784]⟩
abbrev S10 : Shape := ⟨1, ![10]⟩
abbrev S_ : Shape := ⟨0, ![]⟩

class Facts : Prop where
  bcast_S_S65536x28x28 : S_.BroadcastsInDim S65536x28x28 (![] : Fin 0 → Fin S65536x28x28.rank)
  reducesTo_S65536x28x28_S_d0_1_2 : S65536x28x28.ReducesTo [0, 1, 2] S_
  h_S_ : 0 < S_.numel
  bcast_S_S4 : S_.BroadcastsInDim S4 (![] : Fin 0 → Fin S4.rank)
  reducesTo_S4_S_d0 : S4.ReducesTo [0] S_
  bcast_S_S10x784 : S_.BroadcastsInDim S10x784 (![] : Fin 0 → Fin S10x784.rank)
  reducesTo_S10x784_S_d0_1 : S10x784.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  main_v18

def fn {F : FTy → Type} [FloatOps F] (main_arg0 : FVec F S65536x28x28 .f32) (main_arg1 : FVec F S4 .f32) (main_arg2 : FVec F S10x784 .f32) (main_arg3 : FVec F S10 .f32) : IVec S_ 1 :=
  let main_v0 : FVec F S65536x28x28 .f32 := Host.absf main_arg0
  let main_cst : FVec F S_ .f32 := constant S_ .f32 0x7F800000#32
  let main_v1 : FVec F S65536x28x28 .f32 := broadcastInDim S65536x28x28 ![] bcast_S_S65536x28x28 main_cst
  let main_v2 : IVec S65536x28x28 1 := cmpf .olt main_v0 main_v1
  let main_c : IVec S_ 1 := constantI S_ 1 1#1
  let main_v3 : IVec S_ 1 := (fun x v => Host.reduce IntOp.andi x v reducesTo_S65536x28x28_S_d0_1_2 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S10x784 .f32 := Host.absf main_arg2
  let main_cst_2 : FVec F S_ .f32 := constant S_ .f32 0x7F800000#32
  let main_v10 : FVec F S10x784 .f32 := broadcastInDim S10x784 ![] bcast_S_S10x784 main_cst_2
  let main_v11 : IVec S10x784 1 := cmpf .olt main_v9 main_v10
  let main_c_3 : IVec S_ 1 := constantI S_ 1 1#1
  let main_v12 : IVec S_ 1 := (fun x v => Host.reduce IntOp.andi x v reducesTo_S10x784_S_d0_1 h_S_) main_v11 main_c_3
  let main_v13 : IVec S_ 1 := andi main_v8 main_v12
  let main_v14 : FVec F S10 .f32 := Host.absf main_arg3
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_v13 main_v16
-- ==== Kernel.lean ====
abbrev S65536x28x28 : Shape := ⟨3, ![65536, 28, 28]⟩
abbrev S4 : Shape := ⟨1, ![4]⟩
abbrev S10x784 : Shape := ⟨2, ![10, 784]⟩
abbrev S10 : Shape := ⟨1, ![10]⟩
abbrev S784x10 : Shape := ⟨2, ![784, 10]⟩
abbrev S65536x10 : Shape := ⟨2, ![65536, 10]⟩
abbrev S2048x28x28 : Shape := ⟨3, ![2048, 28, 28]⟩
abbrev S2048x10 : Shape := ⟨2, ![2048, 10]⟩
abbrev S2048x14x2x14x2 : Shape := ⟨5, ![2048, 14, 2, 14, 2]⟩
abbrev S2048x14x1x14x1 : Shape := ⟨5, ![2048, 14, 1, 14, 1]⟩
abbrev S2048x14x14 : Shape := ⟨3, ![2048, 14, 14]⟩
abbrev S1 : Shape := ⟨1, ![1]⟩
abbrev S2048x14x14x1 : Shape := ⟨4, ![2048, 14, 14, 1]⟩
abbrev S2048x14x14x4 : Shape := ⟨4, ![2048, 14, 14, 4]⟩
abbrev S2048x784 : Shape := ⟨2, ![2048, 784]⟩
abbrev S1x10 : Shape := ⟨2, ![1, 10]⟩
abbrev S2048 : Shape := ⟨1, ![2048]⟩
abbrev S2048x1 : Shape := ⟨2, ![2048, 1]⟩

abbrev nBuf : Space → Nat
  | .hbm => 6
  | .vmem => 7
  | .smem => 0
  | _ => 0

abbrev bufTy : (tb : Table) → Fin (tcTables nBuf tb) → BufTy
  | .hbm, ⟨0, _⟩ => ⟨S65536x28x28, .f32⟩
  | .hbm, ⟨1, _⟩ => ⟨S4, .f32⟩
  | .hbm, ⟨2, _⟩ => ⟨S10x784, .f32⟩
  | .hbm, ⟨3, _⟩ => ⟨S10, .f32⟩
  | .hbm, ⟨4, _⟩ => ⟨S784x10, .f32⟩
  | .hbm, ⟨5, _⟩ => ⟨S65536x10, .f32⟩
  | .local _ .vmem, ⟨0, _⟩ => ⟨S2048x28x28, .f32⟩
  | .local _ .vmem, ⟨1, _⟩ => ⟨S2048x28x28, .f32⟩
  | .local _ .vmem, ⟨2, _⟩ => ⟨S4, .f32⟩
  | .local _ .vmem, ⟨3, _⟩ => ⟨S784x10, .f32⟩
  | .local _ .vmem, ⟨4, _⟩ => ⟨S10, .f32⟩
  | .local _ .vmem, ⟨5, _⟩ => ⟨S2048x10, .f32⟩
  | .local _ .vmem, ⟨6, _⟩ => ⟨S2048x10, .f32⟩
  | _, _ => ⟨S65536x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S10x784_S784x10_1_0 : S10x784.Transposes [1, 0] S784x10
  inb_S2048x28x28_S2048x28x28_0_0_0 : ∀ a, (![0, 0, 0] : Fin 3 → Nat) a + S2048x28x28.size a ≤ S2048x28x28.size a
  h_S2048x28x28 : 0 < S2048x28x28.numel
  shapeCasts_S2048x28x28_S2048x14x2x14x2 : S2048x28x28.ShapeCasts S2048x14x2x14x2
  slices_S2048x14x2x14x2_o0_0_0_0_0_S2048x14x1x14x1 : S2048x14x2x14x2.Slices ![0, 0, 0, 0, 0] S2048x14x1x14x1
  shapeCasts_S2048x14x1x14x1_S2048x14x14 : S2048x14x1x14x1.ShapeCasts S2048x14x14
  slices_S2048x14x2x14x2_o0_0_0_0_1_S2048x14x1x14x1 : S2048x14x2x14x2.Slices ![0, 0, 0, 0, 1] S2048x14x1x14x1
  slices_S2048x14x2x14x2_o0_0_1_0_0_S2048x14x1x14x1 : S2048x14x2x14x2.Slices ![0, 0, 1, 0, 0] S2048x14x1x14x1
  slices_S2048x14x2x14x2_o0_0_1_0_1_S2048x14x1x14x1 : S2048x14x2x14x2.Slices ![0, 0, 1, 0, 1] S2048x14x1x14x1
  inb_S4_S4_0 : ∀ a, (![0] : Fin 1 → Nat) a + S4.size a ≤ S4.size a
  h_S4 : 0 < S4.numel
  slices_S4_o0_S1 : S4.Slices ![0] S1
  inpos_S1_p0 : ∀ a, (![0] : Fin 1 → Nat) a < S1.size a
  slices_S4_o1_S1 : S4.Slices ![1] S1
  slices_S4_o2_S1 : S4.Slices ![2] S1
  slices_S4_o3_S1 : S4.Slices ![3] S1
  shapeCasts_S2048x14x14_S2048x14x14x1 : S2048x14x14.ShapeCasts S2048x14x14x1
  concatenates_S2048x14x14x1_S2048x14x14x1_S2048x14x14x1_S2048x14x14x1_S2048x14x14x4_d3 : Shape.Concatenates [S2048x14x14x1, S2048x14x14x1, S2048x14x14x1, S2048x14x14x1] S2048x14x14x4 3
  shapeCasts_S2048x14x14x4_S2048x784 : S2048x14x14x4.ShapeCasts S2048x784
  inb_S784x10_S784x10_0_0 : ∀ a, (![0, 0] : Fin 2 → Nat) a + S784x10.size a ≤ S784x10.size a
  h_S784x10 : 0 < S784x10.numel
  shapeCasts_S784x10_S784x10 : S784x10.ShapeCasts S784x10
  inb_S10_S10_0 : ∀ a, (![0] : Fin 1 → Nat) a + S10.size a ≤ S10.size a
  h_S10 : 0 < S10.numel
  shapeCasts_S10_S1x10 : S10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x784_S784x10_S2048x10_1_0_0_1_n_n_wf : DotDims.WF S2048x784 S784x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x28x28.size a ≤ S65536x28x28.size a
  hwx0_0 : ∀ i : grid0.Coords, EltTy.bits .f32 = 32 ∨ (Rect.block (s := S65536x28x28) S2048x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4.size a ≤ S4.size a
  hwx0_1 : ∀ i : grid0.Coords, EltTy.bits .f32 = 32 ∨ (Rect.block (s := S4) S4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x10.size a ≤ S784x10.size a
  hwx0_2 : ∀ i : grid0.Coords, EltTy.bits .f32 = 32 ∨ (Rect.block (s := S784x10) S784x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x10.size a ≤ S65536x10.size a
  hwx0_4 : ∀ i : grid0.Coords, EltTy.bits .f32 = 32 ∨ (Rect.block (s := S65536x10) S2048x10.size (cc0_transform_4 i) (hinb0_4 i)).WholeWords (EltTy.packing .f32)

variable [Facts₀]

def dot_S2048x784_S784x10_S2048x10_1_0_0_1_n_n : DotDims S2048x784 S784x10 S2048x10 where
  lhsContracting := [1]
  rhsContracting := [0]
  lhsNonContracting := [0]
  rhsNonContracting := [1]
  lhsBatch := []
  rhsBatch := []
  wf := dot_S2048x784_S784x10_S2048x10_1_0_0_1_n_n_wf

abbrev win0_0 : Pipeline.Window sig grid0 :=
  Pipeline.Window.ofSpec (Memref.whole main_arg0) S2048x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S784x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x28x28 : Shape := ⟨3, ![65536, 28, 28]⟩
abbrev S4 : Shape := ⟨1, ![4]⟩
abbrev S10x784 : Shape := ⟨2, ![10, 784]⟩
abbrev S10 : Shape := ⟨1, ![10]⟩
abbrev S65536x14x2x14x2 : Shape := ⟨5, ![65536, 14, 2, 14, 2]⟩
abbrev S65536x14x14x2x2 : Shape := ⟨5, ![65536, 14, 14, 2, 2]⟩
abbrev S65536x196x4 : Shape := ⟨3, ![65536, 196, 4]⟩
abbrev S1x1x4 : Shape := ⟨3, ![1, 1, 4]⟩
abbrev S65536x196x1 : Shape := ⟨3, ![65536, 196, 1]⟩
abbrev S65536x196 : Shape := ⟨2, ![65536, 196]⟩
abbrev S65536x784 : Shape := ⟨2, ![65536, 784]⟩
abbrev S784x10 : Shape := ⟨2, ![784, 10]⟩
abbrev S65536x10 : Shape := ⟨2, ![65536, 10]⟩
abbrev S1x10 : Shape := ⟨2, ![1, 10]⟩
abbrev S_ : Shape := ⟨0, ![]⟩
abbrev S65536 : Shape := ⟨1, ![65536]⟩
abbrev S65536x1 : Shape := ⟨2, ![65536, 1]⟩

abbrev nBuf : Space → Nat
  | .hbm => 51
  | .vmem => 0
  | .smem => 0
  | _ => 0

abbrev bufTy : (tb : Table) → Fin (tcTables nBuf tb) → BufTy
  | .hbm, ⟨0, _⟩ => ⟨S65536x28x28, .f32⟩
  | .hbm, ⟨1, _⟩ => ⟨S4, .f32⟩
  | .hbm, ⟨2, _⟩ => ⟨S10x784, .f32⟩
  | .hbm, ⟨3, _⟩ => ⟨S10, .f32⟩
  | .hbm, ⟨4, _⟩ => ⟨S65536x14x2x14x2, .f32⟩
  | .hbm, ⟨5, _⟩ => ⟨S65536x14x14x2x2, .f32⟩
  | .hbm, ⟨6, _⟩ => ⟨S65536x196x4, .f32⟩
  | .hbm, ⟨7, _⟩ => ⟨S1x1x4, .f32⟩
  | .hbm, ⟨8, _⟩ => ⟨S65536x196x4, .f32⟩
  | .hbm, ⟨9, _⟩ => ⟨S65536x196x4, .f32⟩
  | .hbm, ⟨10, _⟩ => ⟨S65536x196x4, .f32⟩
  | .hbm, ⟨11, _⟩ => ⟨S65536x196x1, .f32⟩
  | .hbm, ⟨12, _⟩ => ⟨S65536x196, .f32⟩
  | .hbm, ⟨13, _⟩ => ⟨S65536x196x1, .f32⟩
  | .hbm, ⟨14, _⟩ => ⟨S65536x196, .f32⟩
  | .hbm, ⟨15, _⟩ => ⟨S65536x196x1, .f32⟩
  | .hbm, ⟨16, _⟩ => ⟨S65536x196, .f32⟩
  | .hbm, ⟨17, _⟩ => ⟨S65536x196, .f32⟩
  | .hbm, ⟨18, _⟩ => ⟨S65536x196x1, .f32⟩
  | .hbm, ⟨19, _⟩ => ⟨S65536x196, .f32⟩
  | .hbm, ⟨20, _⟩ => ⟨S65536x196x1, .f32⟩
  | .hbm, ⟨21, _⟩ => ⟨S65536x196, .f32⟩
  | .hbm, ⟨22, _⟩ => ⟨S65536x196x1, .f32⟩
  | .hbm, ⟨23, _⟩ => ⟨S65536x196, .f32⟩
  | .hbm, ⟨24, _⟩ => ⟨S65536x196, .f32⟩
  | .hbm, ⟨25, _⟩ => ⟨S65536x196x1, .f32⟩
  | .hbm, ⟨26, _⟩ => ⟨S65536x196x1, .f32⟩
  | .hbm, ⟨27, _⟩ => ⟨S65536x196x1, .f32⟩
  | .hbm, ⟨28, _⟩ => ⟨S65536x196x1, .f32⟩
  | .hbm, ⟨29, _⟩ => ⟨S65536x196x4, .f32⟩
  | .hbm, ⟨30, _⟩ => ⟨S65536x784, .f32⟩
  | .hbm, ⟨31, _⟩ => ⟨S784x10, .f32⟩
  | .hbm, ⟨32, _⟩ => ⟨S65536x10, .f32⟩
  | .hbm, ⟨33, _⟩ => ⟨S1x10, .f32⟩
  | .hbm, ⟨34, _⟩ => ⟨S65536x10, .f32⟩
  | .hbm, ⟨35, _⟩ => ⟨S65536x10, .f32⟩
  | .hbm, ⟨36, _⟩ => ⟨S_, .f32⟩
  | .hbm, ⟨37, _⟩ => ⟨S65536, .f32⟩
  | .hbm, ⟨38, _⟩ => ⟨S_, .f32⟩
  | .hbm, ⟨39, _⟩ => ⟨S65536, .f32⟩
  | .hbm, ⟨40, _⟩ => ⟨S65536, .f32⟩
  | .hbm, ⟨41, _⟩ => ⟨S65536x1, .f32⟩
  | .hbm, ⟨42, _⟩ => ⟨S65536x10, .f32⟩
  | .hbm, ⟨43, _⟩ => ⟨S65536x10, .f32⟩
  | .hbm, ⟨44, _⟩ => ⟨S65536x10, .f32⟩
  | .hbm, ⟨45, _⟩ => ⟨S_, .f32⟩
  | .hbm, ⟨46, _⟩ => ⟨S65536, .f32⟩
  | .hbm, ⟨47, _⟩ => ⟨S65536x1, .f32⟩
  | .hbm, ⟨48, _⟩ => ⟨S65536x1, .f32⟩
  | .hbm, ⟨49, _⟩ => ⟨S65536x10, .f32⟩
  | .hbm, ⟨50, _⟩ => ⟨S65536x10, .f32⟩
  | _, _ => ⟨S65536x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_cst : Ref sig .tc := ⟨.hbm, 36, rfl⟩
abbrev main_call0_v0 : Ref sig .tc := ⟨.hbm, 37, rfl⟩
abbrev main_call0_cst_0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_cst_1 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  shapeCasts_S65536x28x28_S65536x14x2x14x2 : S65536x28x28.ShapeCasts S65536x14x2x14x2
  transposes_S65536x14x2x14x2_S65536x14x14x2x2_0_1_3_2_4 : S65536x14x2x14x2.Transposes [0, 1, 3, 2, 4] S65536x14x14x2x2
  shapeCasts_S65536x14x14x2x2_S65536x196x4 : S65536x14x14x2x2.ShapeCasts S65536x196x4
  bcast_S4_S1x1x4_2 : S4.BroadcastsInDim S1x1x4 (![2] : Fin 1 → Fin S1x1x4.rank)
  bcast_S1x1x4_S65536x196x4_0_1_2 : S1x1x4.BroadcastsInDim S65536x196x4 (![0, 1, 2] : Fin 3 → Fin S65536x196x4.rank)
  slices_S65536x196x4_S65536x196x1_0_0_0 : S65536x196x4.Slices ![0, 0, 0] S65536x196x1
  shapeCasts_S65536x196x1_S65536x196 : S65536x196x1.ShapeCasts S65536x196
  slices_S65536x196x4_S65536x196x1_0_0_1 : S65536x196x4.Slices ![0, 0, 1] S65536x196x1
  slices_S65536x196x4_S65536x196x1_0_0_2 : S65536x196x4.Slices ![0, 0, 2] S65536x196x1
  slices_S65536x196x4_S65536x196x1_0_0_3 : S65536x196x4.Slices ![0, 0, 3] S65536x196x1
  bcast_S65536x196_S65536x196x1_0_1 : S65536x196.BroadcastsInDim S65536x196x1 (![0, 1] : Fin 2 → Fin S65536x196x1.rank)
  concatenates_S65536x196x1_S65536x196x1_S65536x196x1_S65536x196x1_S65536x196x4_d2 : Shape.Concatenates [S65536x196x1, S65536x196x1, S65536x196x1, S65536x196x1] S65536x196x4 2
  shapeCasts_S65536x196x4_S65536x784 : S65536x196x4.ShapeCasts S65536x784
  transposes_S10x784_S784x10_1_0 : S10x784.Transposes [1, 0] S784x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x784_S784x10_S65536x10_1_0_0_1_n_n_wf : DotDims.WF S65536x784 S784x10 S65536x10 [1] [0] [0] [1] [] []

variable [Facts₀]

def dot_S65536x784_S784x10_S65536x10_1_0_0_1_n_n : DotDims S65536x784 S784x10 S65536x10 where
  lhsContracting := [1]
  rhsContracting := [0]
  lhsNonContracting := [0]
  rhsNonContracting := [1]
  lhsBatch := []
  rhsBatch := []
  wf := dot_S65536x784_S784x10_S65536x10_1_0_0_1_n_n_wf

class Facts : Prop extends Facts₀ where

variable [Facts]
-- ==== Proof.Spec.lean ====
/-
  The function both programs compute, on the extended reals.

  An image is a 28 × 28 array `X`, cut into 14 × 14 patches of 2 × 2 pixels; patch `(h, w)` holds the pixels of rows
  `2h, 2h+1` and columns `2w, 2w+1`.  With four angles `P 0 … P 3`, one per pixel of a patch, write
  `z₀₀ = cos (X (2h) (2w) + P 0)`, `z₀₁ = cos (X (2h) (2w+1) + P 1)`, `z₁₀ = cos (X (2h+1) (2w) + P 2)`,
  `z₁₁ = cos (X (2h+1) (2w+1) + P 3)`.  The patch contributes the four features `z₀₀, z₀₀ · z₀₁, z₁₀, z₁₀ · z₁₁`, and the
  image's 784 features are the patches' features in row-major order of `(h, w)`: feature `k` is feature `k % 4` of patch
  `(k / 56, k / 4 % 14)`.

  A linear layer sends the features to ten logits, `l c = (∑ k, feat k · Wt k c) + B c`, and the result is their
  log-softmax computed the stable way: with `M` the maximum of the logits (a fold of `max` from `-∞`),
  `out c = (l c − M) − log (∑ c', exp (l c' − M))`.

  Every array entry of the result depends on one image only: row `r` of the result is `rowOut` of image `r`.
-/
import Idealize.ShloMosaic.PureOps.Ideal
import Idealize.ShloMosaic.Lib.ValueIdx

noncomputable section

namespace Cert.Quanv

open Idealize.ShloMosaic Idealize.ShloMosaic.ValueIdx

/-- The even row (or column) `2h` of patch row (or column) `h`. -/
def ev (h : Fin 14) : Fin 28 := ⟨2 * h.val, by have := h.isLt; omega⟩

/-- The odd row (or column) `2h + 1` of patch row (or column) `h`. -/
def od (h : Fin 14) : Fin 28 := ⟨2 * h.val + 1, by have := h.isLt; omega⟩

/-- The four features of patch `(h, w)` of image `X` under the angles `P`. -/
def patchFeat (X : Fin 28 → Fin 28 → EReal) (P : Fin 4 → EReal) (h w : Fin 14) : Fin 4 → EReal :=
  ![Ideal.cos (X (ev h) (ev w) + P 0),
    Ideal.cos (X (ev h) (ev w) + P 0) * Ideal.cos (X (ev h) (od w) + P 1),
    Ideal.cos (X (od h) (ev w) + P 2),
    Ideal.cos (X (od h) (ev w) + P 2) * Ideal.cos (X (od h) (od w) + P 3)]

/-- Feature `k` of image `X`: feature `k % 4` of patch `(k / 56, k / 4 % 14)`. -/
def feat (X : Fin 28 → Fin 28 → EReal) (P : Fin 4 → EReal) (k : Fin 784) : EReal :=
  patchFeat X P ⟨k.val / 56, by have := k.isLt; omega⟩ ⟨k.val / 4 % 14, by omega⟩ ⟨k.val % 4, by omega⟩

/-- The ten logits of image `X`: the features through the linear layer `Wt` (784 × 10) plus the bias `B`. -/
def logit (X : Fin 28 → Fin 28 → EReal) (P : Fin 4 → EReal) (Wt : Fin 784 → Fin 10 → EReal) (B : Fin 10 → EReal)
    (c : Fin 10) : EReal :=
  (∑ k : Fin 784, feat X P k * Wt k c) + B c

/-- The largest of ten numbers, as a fold of `max` from what the pattern of `-∞` denotes. -/
def rowMax (l : Fin 10 → EReal) : EReal :=
  (Finset.univ : Finset (Fin 10)).fold max (Ideal.ofBits .f32 0xFF800000#32) l

/-- The log-softmax of ten numbers, shifted by their maximum first. -/
def logSoftmax (l : Fin 10 → EReal) (c : Fin 10) : EReal :=
  (l c - rowMax l) - Ideal.log (∑ c' : Fin 10, Ideal.exp (l c' - rowMax l))

/-- One image's ten results. -/
def rowOut (X : Fin 28 → Fin 28 → EReal) (P : Fin 4 → EReal) (Wt : Fin 784 → Fin 10 → EReal) (B : Fin 10 → EReal) :
    Fin 10 → EReal :=
  logSoftmax (logit X P Wt B)

/-- The whole result array from the four argument arrays: entry `(r, c)` is result `c` of image `r`; the linear layer
    is the weight array `W` (10 × 784) read transposed. -/
def G (x : (⟨3, ![65536, 28, 28]⟩ : Shape).Idx → EReal) (p : (⟨1, ![4]⟩ : Shape).Idx → EReal)
    (W : (⟨2, ![10, 784]⟩ : Shape).Idx → EReal) (b : (⟨1, ![10]⟩ : Shape).Idx → EReal) :
    (⟨2, ![65536, 10]⟩ : Shape).Idx → EReal :=
  fun i => rowOut (fun a a' => x (ix3 (i 0) a a')) (fun j => p (ix1 j)) (fun k c => W (ix2 c k)) (fun c => b (ix1 c)) (i 1)

end Cert.Quanv

end
-- ==== Proof.LibConcat4.lean ====
/-
  A concatenation of four pieces of one shape, read at an index.
-/
import Idealize.ShloMosaic.Lib.Pipeline.Value

noncomputable section

namespace Cert.LibConcat4

open Idealize.ShloMosaic

/-- Four pieces `u 0, u 1, u 2, u 3` of one shape `s`, of extent `K` along axis `a`, laid end to end along that axis:
    at an index whose axis-`a` coordinate is `g · K + e` with `e` a coordinate of the piece, the concatenation reads
    piece `g` at the index with `e` on the axis and the same coordinates elsewhere. -/
theorem concat4_at {α : Type} {t s : Shape} (a : Fin t.rank) (u : Fin 4 → (s.Idx → α))
    (h : Shape.Concatenates ([(⟨s, u 0⟩ : (s : Shape) × (s.Idx → α)), ⟨s, u 1⟩, ⟨s, u 2⟩, ⟨s, u 3⟩].map (·.1)) t a)
    (hr : s.rank = t.rank) (K : Nat) (hK : s.size (a.cast hr.symm) = K)
    (j : t.Idx) (g : Fin 4) (i : s.Idx)
    (hi : ∀ b : Fin s.rank, b.cast hr ≠ a → (i b).val = (j (b.cast hr)).val)
    (ha : g.val * K + (i (a.cast hr.symm)).val = (j a).val) :
    concatenate t a [⟨s, u 0⟩, ⟨s, u 1⟩, ⟨s, u 2⟩, ⟨s, u 3⟩] h j = u g i := by
  subst hK
  match g with
  | ⟨0, _⟩ =>
    exact concatenate_apply_piece a _ h j 0 (by simp) s (u 0) rfl hr 0 (by simp) i hi (by simpa using ha)
  | ⟨1, _⟩ =>
    exact concatenate_apply_piece a _ h j 1 (by simp) s (u 1) rfl hr (1 * s.size (a.cast hr.symm))
      (by simp [dif_pos hr]) i hi ha
  | ⟨2, _⟩ =>
    exact concatenate_apply_piece a _ h j 2 (by simp) s (u 2) rfl hr (2 * s.size (a.cast hr.symm))
      (by simp [dif_pos hr]; omega) i hi ha
  | ⟨3, _⟩ =>
    exact concatenate_apply_piece a _ h j 3 (by simp) s (u 3) rfl hr (3 * s.size (a.cast hr.symm))
      (by simp [dif_pos hr]; omega) i hi ha

end Cert.LibConcat4

end
-- ==== Proof.KernelFeatLayout.lean ====
/-
  The layout operations of the feature computation, each read at an index: a pixel of a patch through the 2 × 2 split
  of the image axes, an angle through its unit slice, and the interleaving of four pieces along a new last axis
  followed by the flattening of the patches.
-/
import proofs.«102247_j65481071409993_1_alg».proof.Proof.Gen.KernelIdeal.Skeleton
import Idealize.ShloMosaic.Lib.Pipeline.Value
import Idealize.ShloMosaic.Lib.ValueIdx
import proofs.«102247_j65481071409993_1_alg».proof.Proof.LibConcat4

noncomputable section

namespace Cert.Quanv.KernelSide

open Cert.KernelIdeal Cert.KernelIdeal.Gen
open Idealize.ShloMosaic Idealize.ShloMosaic.ValueIdx

/-- Pixel (i, j) of patch (h, w) of image r: the block viewed as [2048, 14, 2, 14, 2], sliced at offset
    (0, 0, i, 0, j) to [2048, 14, 1, 14, 1] and viewed as [2048, 14, 14], read at (r, h, w), is the block at
    (r, 2h + i, 2w + j): all three steps keep or shift row-major positions linearly. -/
theorem pixel_apply {α : Type} (y : S2048x28x28.Idx → α) (i j : Nat) (hi : i < 2) (hj : j < 2)
    (h1 : S2048x28x28.ShapeCasts S2048x14x2x14x2)
    (h2 : S2048x14x2x14x2.Slices ![0, 0, i, 0, j] S2048x14x1x14x1)
    (h3 : S2048x14x1x14x1.ShapeCasts S2048x14x14)
    (r : Fin 2048) (h w : Fin 14) (a b : Fin 28) (ha : a.val = 2 * h.val + i) (hb : b.val = 2 * w.val + j) :
    shapeCast S2048x14x14 (extractStridedSlice S2048x14x1x14x1 ![0, 0, i, 0, j] (shapeCast S2048x14x2x14x2 y h1) h2) h3
        (ix3 r h w) = y (ix3 r a b) := by
  have hr := r.isLt
  have hh := h.isLt
  have hw := w.isLt
  refine (shapeCast_apply _ h3 (ix3 r h w) (ix5 r h (⟨0, by omega⟩ : Fin 1) w (⟨0, by omega⟩ : Fin 1)) ?_).trans ?_
  · rw [Shape.rowMajor_val_five, Shape.rowMajor_val_three]
    show (((r.val * 14 + h.val) * 1 + 0) * 14 + w.val) * 1 + 0 = (r.val * 14 + h.val) * 14 + w.val
    omega
  refine (extractStridedSlice_apply _ _ h2 _ (ix5 r h (⟨i, hi⟩ : Fin 2) w (⟨j, hj⟩ : Fin 2)) ?_).trans ?_
  · intro c
    match c with
    | ⟨0, _⟩ => show r.val = 0 + r.val; omega
    | ⟨1, _⟩ => show h.val = 0 + h.val; omega
    | ⟨2, _⟩ => show i = i + 0; omega
    | ⟨3, _⟩ => show w.val = 0 + w.val; omega
    | ⟨4, _⟩ => show j = j + 0; omega
  refine shapeCast_apply y h1 _ (ix3 r a b) ?_
  rw [Shape.rowMajor_val_three, Shape.rowMajor_val_five]
  show (r.val * 28 + a.val) * 28 + b.val = (((r.val * 14 + h.val) * 2 + i) * 14 + w.val) * 2 + j
  omega

/-- Angle n: the unit slice of the four angles at offset n, read at its one position, is angle n. -/
theorem angle_apply {α : Type} (x : S4.Idx → α) (n : Nat) (hn : n < 4) (h4 : S4.Slices ![n] S1)
    (h5 : ∀ a, (![0] : Fin 1 → Nat) a < S1.size a) :
    extractAt ![0] (extractStridedSlice S1 ![n] x h4) h5 = x (ix1 ⟨n, hn⟩) := by
  unfold extractAt
  refine extractStridedSlice_apply _ x h4 _ (ix1 ⟨n, hn⟩) ?_
  intro c
  match c with
  | ⟨0, _⟩ => show n = n + 0; rfl

/-- Four pieces of shape [2048, 14, 14], each given a unit last axis, laid end to end along it and the result
    flattened to [2048, 784]: entry (r, k) is piece k % 4 at (r, k / 56, k / 4 % 14), because
    r · 784 + k = ((r · 14 + k / 56) · 14 + k / 4 % 14) · 4 + k % 4. -/
theorem assemble_apply {α : Type} (p0 p1 p2 p3 : S2048x14x14.Idx → α)
    (hc : S2048x14x14.ShapeCasts S2048x14x14x1)
    (hcat : Shape.Concatenates [S2048x14x14x1, S2048x14x14x1, S2048x14x14x1, S2048x14x14x1] S2048x14x14x4 3)
    (hf : S2048x14x14x4.ShapeCasts S2048x784) (r : Fin 2048) (k : Fin 784) :
    shapeCast S2048x784 (concatenate S2048x14x14x4 3 [⟨S2048x14x14x1, shapeCast S2048x14x14x1 p0 hc⟩,
        ⟨S2048x14x14x1, shapeCast S2048x14x14x1 p1 hc⟩, ⟨S2048x14x14x1, shapeCast S2048x14x14x1 p2 hc⟩,
        ⟨S2048x14x14x1, shapeCast S2048x14x14x1 p3 hc⟩] hcat) hf (ix2 r k)
      = (![p0, p1, p2, p3] : Fin 4 → S2048x14x14.Idx → α) ⟨k.val % 4, by omega⟩
          (ix3 r (⟨k.val / 56, by have := k.isLt; omega⟩ : Fin 14) (⟨k.val / 4 % 14, by omega⟩ : Fin 14)) := by
  have hr := r.isLt
  have hk := k.isLt
  refine (shapeCast_apply _ hf (ix2 r k) (ix4 r (⟨k.val / 56, by omega⟩ : Fin 14) (⟨k.val / 4 % 14, by omega⟩ : Fin 14)
    (⟨k.val % 4, by omega⟩ : Fin 4)) ?_).trans ?_
  · rw [Shape.rowMajor_val_four, Shape.rowMajor_val_two]
    show ((r.val * 14 + k.val / 56) * 14 + k.val / 4 % 14) * 4 + k.val % 4 = r.val * 784 + k.val
    omega
  refine (Cert.LibConcat4.concat4_at (t := S2048x14x14x4) (s := S2048x14x14x1) 3
    (fun g => shapeCast S2048x14x14x1 ((![p0, p1, p2, p3] : Fin 4 → S2048x14x14.Idx → α) g) hc) hcat rfl 1 rfl _
    (⟨k.val % 4, by omega⟩ : Fin 4)
    (ix4 r (⟨k.val / 56, by omega⟩ : Fin 14) (⟨k.val / 4 % 14, by omega⟩ : Fin 14) (⟨0, by omega⟩ : Fin 1)) ?_ ?_).trans ?_
  · intro b
    match b with
    | ⟨0, _⟩ => exact fun _ => rfl
    | ⟨1, _⟩ => exact fun _ => rfl
    | ⟨2, _⟩ => exact fun _ => rfl
    | ⟨3, _⟩ => exact fun hne => absurd rfl hne
  · show k.val % 4 * 1 + 0 = k.val % 4
    omega
  refine shapeCast_apply _ hc _ (ix3 r (⟨k.val / 56, by omega⟩ : Fin 14) (⟨k.val / 4 % 14, by omega⟩ : Fin 14)) ?_
  rw [Shape.rowMajor_val_three, Shape.rowMajor_val_four]
  show (r.val * 14 + k.val / 56) * 14 + k.val / 4 % 14 = ((r.val * 14 + k.val / 56) * 14 + k.val / 4 % 14) * 1 + 0
  omega

end Cert.Quanv.KernelSide

end
-- ==== Proof.KernelFeat.lean ====
/-
  The features the kernel body computes from a block of 2048 images, read at an index: entry `(r, k)` of the
  2048 × 784 feature matrix is feature `k` of image `r` of the block.
-/
import proofs.«102247_j65481071409993_1_alg».proof.Proof.Gen.KernelIdeal.Skeleton
import proofs.«102247_j65481071409993_1_alg».proof.Proof.Spec
import Idealize.ShloMosaic.Lib.Pipeline.Value
import Idealize.ShloMosaic.Lib.ValueIdx
import proofs.«102247_j65481071409993_1_alg».proof.Proof.LibConcat4
import proofs.«102247_j65481071409993_1_alg».proof.Proof.KernelFeatLayout

noncomputable section

namespace Cert.Quanv.KernelSide

open Cert.KernelIdeal Cert.KernelIdeal.Gen
open Idealize.ShloMosaic Idealize.ShloMosaic.ValueIdx

variable {F : FTy → Type} [FloatOps F]

/-- The features the body builds from a block of images and the four angles: the block viewed as 14 × 14 patches of
    2 × 2 pixels, the four pixels of every patch sliced out, each shifted by its angle and sent through the cosine, two
    products formed, the four results interleaved along a new last axis and the patches flattened. -/
def kfeat (v0 : Vec F S2048x28x28 .f32) (v10 : Vec F S4 .f32) : FVec F S2048x784 .f32 :=
  have v1 : FVec F S2048x14x2x14x2 .f32 := shapeCast S2048x14x2x14x2 v0 shapeCasts_S2048x28x28_S2048x14x2x14x2
  have v2 : FVec F S2048x14x1x14x1 .f32 := extractStridedSlice S2048x14x1x14x1 ![0, 0, 0, 0, 0] v1 slices_S2048x14x2x14x2_o0_0_0_0_0_S2048x14x1x14x1
  have v3 : FVec F S2048x14x14 .f32 := shapeCast S2048x14x14 v2 shapeCasts_S2048x14x1x14x1_S2048x14x14
  have v4 : FVec F S2048x14x1x14x1 .f32 := extractStridedSlice S2048x14x1x14x1 ![0, 0, 0, 0, 1] v1 slices_S2048x14x2x14x2_o0_0_0_0_1_S2048x14x1x14x1
  have v5 : FVec F S2048x14x14 .f32 := shapeCast S2048x14x14 v4 shapeCasts_S2048x14x1x14x1_S2048x14x14
  have v6 : FVec F S2048x14x1x14x1 .f32 := extractStridedSlice S2048x14x1x14x1 ![0, 0, 1, 0, 0] v1 slices_S2048x14x2x14x2_o0_0_1_0_0_S2048x14x1x14x1
  have v7 : FVec F S2048x14x14 .f32 := shapeCast S2048x14x14 v6 shapeCasts_S2048x14x1x14x1_S2048x14x14
  have v8 : FVec F S2048x14x1x14x1 .f32 := extractStridedSlice S2048x14x1x14x1 ![0, 0, 1, 0, 1] v1 slices_S2048x14x2x14x2_o0_0_1_0_1_S2048x14x1x14x1
  have v9 : FVec F S2048x14x14 .f32 := shapeCast S2048x14x14 v8 shapeCasts_S2048x14x1x14x1_S2048x14x14
  have v11 : FVec F S1 .f32 := extractStridedSlice S1 ![0] v10 slices_S4_o0_S1
  have v12 : F .f32 := extractAt ![0] v11 inpos_S1_p0
  have v13 : FVec F S1 .f32 := extractStridedSlice S1 ![1] v10 slices_S4_o1_S1
  have v14 : F .f32 := extractAt ![0] v13 inpos_S1_p0
  have v15 : FVec F S1 .f32 := extractStridedSlice S1 ![2] v10 slices_S4_o2_S1
  have v16 : F .f32 := extractAt ![0] v15 inpos_S1_p0
  have v17 : FVec F S1 .f32 := extractStridedSlice S1 ![3] v10 slices_S4_o3_S1
  have v18 : F .f32 := extractAt ![0] v17 inpos_S1_p0
  have v19 : FVec F S2048x14x14 .f32 := broadcast S2048x14x14 v12
  have v20 : FVec F S2048x14x14 .f32 := addf v3 v19
  have v21 : FVec F S2048x14x14 .f32 := cos v20
  have v22 : FVec F S2048x14x14 .f32 := broadcast S2048x14x14 v14
  have v23 : FVec F S2048x14x14 .f32 := addf v5 v22
  have v24 : FVec F S2048x14x14 .f32 := cos v23
  have v25 : FVec F S2048x14x14 .f32 := broadcast S2048x14x14 v16
  have v26 : FVec F S2048x14x14 .f32 := addf v7 v25
  have v27 : FVec F S2048x14x14 .f32 := cos v26
  have v28 : FVec F S2048x14x14 .f32 := broadcast S2048x14x14 v18
  have v29 : FVec F S2048x14x14 .f32 := addf v9 v28
  have v30 : FVec F S2048x14x14 .f32 := cos v29
  have v31 : FVec F S2048x14x14 .f32 := mulf v21 v24
  have v32 : FVec F S2048x14x14 .f32 := mulf v27 v30
  have v33 : FVec F S2048x14x14x1 .f32 := shapeCast S2048x14x14x1 v21 shapeCasts_S2048x14x14_S2048x14x14x1
  have v34 : FVec F S2048x14x14x1 .f32 := shapeCast S2048x14x14x1 v31 shapeCasts_S2048x14x14_S2048x14x14x1
  have v35 : FVec F S2048x14x14x1 .f32 := shapeCast S2048x14x14x1 v27 shapeCasts_S2048x14x14_S2048x14x14x1
  have v36 : FVec F S2048x14x14x1 .f32 := shapeCast S2048x14x14x1 v32 shapeCasts_S2048x14x14_S2048x14x14x1
  have v37 : FVec F S2048x14x14x4 .f32 := concatenate S2048x14x14x4 3 [⟨S2048x14x14x1, v33⟩, ⟨S2048x14x14x1, v34⟩, ⟨S2048x14x14x1, v35⟩, ⟨S2048x14x14x1, v36⟩] concatenates_S2048x14x14x1_S2048x14x14x1_S2048x14x14x1_S2048x14x14x1_S2048x14x14x4_d3
  have v38 : FVec F S2048x784 .f32 := shapeCast S2048x784 v37 shapeCasts_S2048x14x14x4_S2048x784
  v38

/-- The cosine of pixel (i, j) of patch (h, w) of image r shifted by angle n, as the body computes it from the block
    and the angles. -/
theorem cosPixel_apply (x0 : Vec Ideal S2048x28x28 .f32) (x1 : Vec Ideal S4 .f32) (i j n : Nat) (hi : i < 2) (hj : j < 2)
    (hn : n < 4) (h1 : S2048x28x28.ShapeCasts S2048x14x2x14x2)
    (h2 : S2048x14x2x14x2.Slices ![0, 0, i, 0, j] S2048x14x1x14x1) (h3 : S2048x14x1x14x1.ShapeCasts S2048x14x14)
    (h4 : S4.Slices ![n] S1) (h5 : ∀ a, (![0] : Fin 1 → Nat) a < S1.size a)
    (r : Fin 2048) (h w : Fin 14) (a b : Fin 28) (ha : a.val = 2 * h.val + i) (hb : b.val = 2 * w.val + j) :
    cos (F := Ideal) (φ := .f32) (addf (F := Ideal) (φ := .f32)
        (shapeCast S2048x14x14 (extractStridedSlice S2048x14x1x14x1 ![0, 0, i, 0, j]
          (shapeCast S2048x14x2x14x2 x0 h1) h2) h3)
        (broadcast S2048x14x14 (extractAt ![0] (extractStridedSlice S1 ![n] x1 h4) h5))) (ix3 r h w)
      = Ideal.cos (x0 (ix3 r a b) + x1 (ix1 ⟨n, hn⟩)) :=
  congrArg Ideal.cos (congrArg₂ (· + ·) (pixel_apply x0 i j hi hj h1 h2 h3 r h w a b ha hb) (angle_apply x1 n hn h4 h5))

/-- Four functions read at one point, selected by an index below four. -/
theorem vec4_apply {ι β : Type} (p0 p1 p2 p3 : ι → β) (e0 e1 e2 e3 : β) (x : ι) (h0 : p0 x = e0) (h1 : p1 x = e1)
    (h2 : p2 x = e2) (h3 : p3 x = e3) (g : Fin 4) :
    (![p0, p1, p2, p3] : Fin 4 → ι → β) g x = (![e0, e1, e2, e3] : Fin 4 → β) g := by
  match g with
  | ⟨0, _⟩ => exact h0
  | ⟨1, _⟩ => exact h1
  | ⟨2, _⟩ => exact h2
  | ⟨3, _⟩ => exact h3

/-- Entry `(r, k)` of the feature matrix is feature `k` of image `r` of the block. -/
theorem kfeat_apply (x0 : Vec Ideal S2048x28x28 .f32) (x1 : Vec Ideal S4 .f32) (r : Fin 2048) (k : Fin 784) :
    kfeat (F := Ideal) x0 x1 (ix2 r k) = Cert.Quanv.feat (fun a a' => x0 (ix3 r a a')) (fun j => x1 (ix1 j)) k := by
  unfold kfeat
  -- entry (r, k) is piece k % 4 at patch (k / 56, k / 4 % 14) of image r
  refine (assemble_apply _ _ _ _ _ _ _ r k).trans ?_
  unfold Cert.Quanv.feat Cert.Quanv.patchFeat
  -- the four pieces at that patch are the patch's four features
  refine vec4_apply _ _ _ _ _ _ _ _ _ ?_ ?_ ?_ ?_ _
  · exact cosPixel_apply x0 x1 0 0 0 (by omega) (by omega) (by omega) _ _ _ _ _ r _ _ (ev _) (ev _) rfl rfl
  · exact congrArg₂ (· * ·)
      (cosPixel_apply x0 x1 0 0 0 (by omega) (by omega) (by omega) _ _ _ _ _ r _ _ (ev _) (ev _) rfl rfl)
      (cosPixel_apply x0 x1 0 1 1 (by omega) (by omega) (by omega) _ _ _ _ _ r _ _ (ev _) (od _) rfl rfl)
  · exact cosPixel_apply x0 x1 1 0 2 (by omega) (by omega) (by omega) _ _ _ _ _ r _ _ (od _) (ev _) rfl rfl
  · exact congrArg₂ (· * ·)
      (cosPixel_apply x0 x1 1 0 2 (by omega) (by omega) (by omega) _ _ _ _ _ r _ _ (od _) (ev _) rfl rfl)
      (cosPixel_apply x0 x1 1 1 3 (by omega) (by omega) (by omega) _ _ _ _ _ r _ _ (od _) (od _) rfl rfl)

end Cert.Quanv.KernelSide

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibRowMax.lean ====
/-
  The maximum of an `[a, b]` array along its second axis, read at an index, on the extended reals: at entry `p` it is
  the fold of `max`, from the accumulator's value, over the entries `(p, k)` of row `p`.
-/
import Idealize.ShloMosaic.Lib.Pipeline.Value
import Idealize.ShloMosaic.Lib.ValueIdx
import Idealize.ShloMosaic.PureOps.Ideal.Laws

noncomputable section

namespace Cert.LibRowMax

open Idealize.ShloMosaic Idealize.ShloMosaic.ValueIdx

/-- A maximum along the second axis of an `[a, b]` array, read at entry `p`: the fold of `max` over row `p`, from
    what the accumulator's pattern denotes. -/
theorem rowMax_apply {a b : ℕ} (src : FVec Ideal ⟨2, ![a, b]⟩ .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (Finset.fold_congr fun k _ => congrArg src (funext fun c => Fin.ext (by
      match c with
      | ⟨0, _⟩ => rfl
      | ⟨1, _⟩ => rfl)))

end Cert.LibRowMax

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibUnitRow.lean ====
/-
  A vector laid out as a one-row matrix, read at an index.

  A `[a]` vector cast to a `[1, a]` array (a reshape that adds a leading unit axis) read at `(u, j)` is the vector's
  entry `j`: both positions are the `j`-th in row-major order, the row coordinate `u` of the unit axis being 0.
-/
import Idealize.ShloMosaic.Lib.Pipeline.Value
import Idealize.ShloMosaic.Lib.ValueIdx

noncomputable section

namespace Cert.LibUnitRow

open Idealize.ShloMosaic Idealize.ShloMosaic.ValueIdx

/-- An `[a]` vector cast to a `[1, a]` row, read at `(u, j)`: the vector's entry `j`. -/
theorem unitRow_apply {a : ℕ} {α : Type} (x : (⟨1, ![a]⟩ : Shape).Idx → α)
    (h : (⟨1, ![a]⟩ : Shape).ShapeCasts ⟨2, ![1, a]⟩) (u : Fin 1) (j : Fin a) :
    shapeCast ⟨2, ![1, a]⟩ x h (ix2 u j) = x (ix1 j) :=
  shapeCast_apply x h (ix2 u j) (ix1 j) (by
    rw [Shape.rowMajor_val_one, Shape.rowMajor_val_two]
    show j.val = u.val * a + j.val
    have hu : u.val = 0 := by have := u.isLt; omega
    rw [hu]
    omega)

end Cert.LibUnitRow

end
-- ==== Proof.KernelRow.lean ====
/-
  The second half of the kernel body on a block of 2048 images, read at an index, on the extended reals.

  From the 2048 × 784 feature matrix `f`, the 784 × 10 weights `w` and the bias `b` the body forms the logits
  `l (r, c) = (∑ k, f (r, k) · w (k, c)) + b c` — a matrix product into a zero accumulator plus the bias laid out as a
  row and repeated down the rows — and then subtracts from every row its maximum, a fold of `max` along the row from
  the pattern of `-∞`, laid out as a column and repeated along the rows.
-/
import proofs.«102247_j65481071409993_1_alg».proof.Proof.Gen.KernelIdeal.Skeleton
import proofs.«102247_j65481071409993_1_alg».proof.Proof.Spec
import Idealize.ShloMosaic.Lib.Pipeline.Value
import Idealize.ShloMosaic.Lib.ValueIdx
import proofs.«102247_j65481071409993_1_alg».proof.Proof.LibRowOps
import proofs.«102247_j65481071409993_1_alg».proof.Proof.LibRowMax
import proofs.«102247_j65481071409993_1_alg».proof.Proof.LibUnitColumn
import proofs.«102247_j65481071409993_1_alg».proof.Proof.LibColumn
import proofs.«102247_j65481071409993_1_alg».proof.Proof.LibUnitRow
import Idealize.ShloMosaic.PureOps.Ideal.Laws

noncomputable section

namespace Cert.Quanv.KernelSide

open Cert.KernelIdeal Cert.KernelIdeal.Gen
open Idealize.ShloMosaic Idealize.ShloMosaic.ValueIdx

variable {F : FTy → Type} [FloatOps F]

/-- The logits the body forms from the features: the product with the weights into zero, plus the bias row. -/
def klogit (v38 : FVec F S2048x784 .f32) (v39 : Vec F S784x10 .f32) (v41 : Vec F S10 .f32) : FVec F S2048x10 .f32 :=
  have v40 : FVec F S784x10 .f32 := shapeCast S784x10 v39 shapeCasts_S784x10_S784x10
  have cst : FVec F S2048x10 .f32 := constant S2048x10 .f32 0x00000000#32
  have v42 : FVec F S2048x10 .f32 := matmul dot_S2048x784_S784x10_S2048x10_1_0_0_1_n_n none v38 v40 cst
  have v43 : FVec F S1x10 .f32 := shapeCast S1x10 v41 shapeCasts_S10_S1x10
  have v44 : FVec F S2048x10 .f32 := broadcastTo S2048x10 v43 broadcasts_S1x10_S2048x10
  have v45 : FVec F S2048x10 .f32 := addf v42 v44
  v45

/-- Every row of the logits shifted by its maximum. -/
def kshift (v45 : FVec F S2048x10 .f32) : FVec F S2048x10 .f32 :=
  have v46 : FVec F S2048 .f32 := multiReduction .maximumf [1] S2048 v45 0xFF800000#32 reduces_S2048x10_S2048 (.inl rfl) rfl
  have v47 : FVec F S2048x1 .f32 := shapeCast S2048x1 v46 shapeCasts_S2048_S2048x1
  have v48 : FVec F S2048x10 .f32 := broadcastTo S2048x10 v47 broadcasts_S2048x1_S2048x10
  have v49 : FVec F S2048x10 .f32 := subf v45 v48
  v49

/-! The product's dimension numbers: the left operand's row is the result's row and its column the contracted
    coordinate; the right operand's row is the contracted coordinate and its column the result's column. -/

theorem dot_lhs_row (j : S2048x10.Idx) (q : dot_S2048x784_S784x10_S2048x10_1_0_0_1_n_n.contr.Idx) : (dot_S2048x784_S784x10_S2048x10_1_0_0_1_n_n.lhsIdx j q 0).val = (j 0).val := by
  unfold DotDims.lhsIdx
  rw [dif_neg (show ¬(0 : Fin S2048x784.rank) ∈ dot_S2048x784_S784x10_S2048x10_1_0_0_1_n_n.lhsBatch by decide),
    dif_pos (show (0 : Fin S2048x784.rank) ∈ dot_S2048x784_S784x10_S2048x10_1_0_0_1_n_n.lhsNonContracting by decide)]
  rfl

theorem dot_lhs_col (j : S2048x10.Idx) (q : dot_S2048x784_S784x10_S2048x10_1_0_0_1_n_n.contr.Idx) : (dot_S2048x784_S784x10_S2048x10_1_0_0_1_n_n.lhsIdx j q 1).val = (q ⟨0, by decide⟩).val :=
  dot_S2048x784_S784x10_S2048x10_1_0_0_1_n_n.lhsIdx_val_of_single rfl j q

theorem dot_rhs_row (j : S2048x10.Idx) (q : dot_S2048x784_S784x10_S2048x10_1_0_0_1_n_n.contr.Idx) : (dot_S2048x784_S784x10_S2048x10_1_0_0_1_n_n.rhsIdx j q 0).val = (q ⟨0, by decide⟩).val :=
  dot_S2048x784_S784x10_S2048x10_1_0_0_1_n_n.rhsIdx_val_of_single rfl j q

theorem dot_rhs_col (j : S2048x10.Idx) (q : dot_S2048x784_S784x10_S2048x10_1_0_0_1_n_n.contr.Idx) : (dot_S2048x784_S784x10_S2048x10_1_0_0_1_n_n.rhsIdx j q 1).val = (j 1).val := by
  unfold DotDims.rhsIdx
  rw [dif_neg (show ¬(1 : Fin S784x10.rank) ∈ dot_S2048x784_S784x10_S2048x10_1_0_0_1_n_n.rhsBatch by decide),
    dif_pos (show (1 : Fin S784x10.rank) ∈ dot_S2048x784_S784x10_S2048x10_1_0_0_1_n_n.rhsNonContracting by decide)]
  rfl

/-- Logit `(r, c)`: the sum over the features of row `r` times column `c` of the weights, plus bias `c`. -/
theorem klogit_apply (f : FVec Ideal S2048x784 .f32) (w : Vec Ideal S784x10 .f32) (b : Vec Ideal S10 .f32)
    (r : Fin 2048) (c : Fin 10) :
    klogit (F := Ideal) f w b (ix2 r c) = (∑ k : Fin 784, f (ix2 r k) * w (ix2 k c)) + b (ix1 c) := by
  unfold klogit
  show FloatOps.matmul dot_S2048x784_S784x10_S2048x10_1_0_0_1_n_n none f (shapeCast S784x10 w shapeCasts_S784x10_S784x10) (constant S2048x10 .f32 0x00000000#32) (ix2 r c)
      + broadcastTo S2048x10 (shapeCast S1x10 b shapeCasts_S10_S1x10) broadcasts_S1x10_S2048x10 (ix2 r c) = _
  rw [shapeCast_self]
  rw [Cert.LibRowOps.matmul_zero_apply dot_S2048x784_S784x10_S2048x10_1_0_0_1_n_n none f w rfl rfl dot_lhs_row dot_lhs_col dot_rhs_row dot_rhs_col r c]
  refine congrArg (_ + ·) ?_
  refine (broadcastTo_apply _ _ (ix2 r c) (ix2 (0 : Fin 1) c) fun a => ?_).trans (Cert.LibUnitRow.unitRow_apply b _ 0 c)
  match a with
  | ⟨0, _⟩ => show 0 = if (1 : Nat) = 1 then 0 else r.val; rw [if_pos rfl]
  | ⟨1, _⟩ => show c.val = if (10 : Nat) = 1 then 0 else c.val; rw [if_neg (by decide)]

/-- The shifted logit `(r, c)`: the logit minus the fold of `max` over row `r`. -/
theorem kshift_apply (l : FVec Ideal S2048x10 .f32) (r : Fin 2048) (c : Fin 10) :
    kshift (F := Ideal) l (ix2 r c)
      = l (ix2 r c) - (Finset.univ : Finset (Fin 10)).fold max (Ideal.ofBits .f32 0xFF800000#32) (fun k => l (ix2 r k)) := by
  unfold kshift
  show l (ix2 r c) - broadcastTo S2048x10 (shapeCast S2048x1 (multiReduction .maximumf [1] S2048 l 0xFF800000#32 reduces_S2048x10_S2048 (.inl rfl) rfl) shapeCasts_S2048_S2048x1) broadcasts_S2048x1_S2048x10 (ix2 r c) = _
  rw [Cert.LibColumn.broadcastTo_a1_ab_apply, Cert.LibUnitColumn.shapeCast_a_a1_apply]
  exact congrArg (l (ix2 r c) - ·) (Cert.LibRowMax.rowMax_apply l 0xFF800000#32 reduces_S2048x10_S2048 (.inl rfl) rfl r)

end Cert.Quanv.KernelSide

end
-- ==== Proof.KernelValue.lean ====
/-
  What the kernel leaves in an output block, read at an index: entry `(r, c)` of the 2048 × 10 block is result `c` of
  image `r` of the input block — the image's features through the linear layer, the ten logits shifted by their maximum,
  minus the logarithm of the sum of the shifted logits' exponentials.
-/
import proofs.«102247_j65481071409993_1_alg».proof.Proof.Gen.KernelIdeal.Value
import proofs.«102247_j65481071409993_1_alg».proof.Proof.KernelFeat
import proofs.«102247_j65481071409993_1_alg».proof.Proof.KernelRow

noncomputable section

namespace Cert.Quanv.KernelSide

open Cert.KernelIdeal Cert.KernelIdeal.Gen
open Idealize.ShloMosaic Idealize.ShloMosaic.ValueIdx

variable {F : FTy → Type} [FloatOps F]

/-- The body's first value is the features, then the logits, then the shift. -/
theorem k0_pay2_eq (v0 : Vec F S2048x28x28 .f32) (v10 : Vec F S4 .f32) (v39 : Vec F S784x10 .f32) (v41 : Vec F S10 .f32) :
    k0_pay2 v0 v10 v39 v41 = kshift (klogit (kfeat v0 v10) v39 v41) := rfl

/-- The shifted logits of image `r` of the block. -/
theorem shifted_apply (x0 : Vec Ideal S2048x28x28 .f32) (x1 : Vec Ideal S4 .f32) (x2 : Vec Ideal S784x10 .f32)
    (x3 : Vec Ideal S10 .f32) (r : Fin 2048) (c : Fin 10) :
    k0_pay2 (F := Ideal) x0 x1 x2 x3 (ix2 r c)
      = Cert.Quanv.logit (fun a a' => x0 (ix3 r a a')) (fun j => x1 (ix1 j)) (fun k c' => x2 (ix2 k c')) (fun c' => x3 (ix1 c')) c
        - Cert.Quanv.rowMax (Cert.Quanv.logit (fun a a' => x0 (ix3 r a a')) (fun j => x1 (ix1 j)) (fun k c' => x2 (ix2 k c')) (fun c' => x3 (ix1 c'))) := by
  rw [k0_pay2_eq, kshift_apply]
  simp only [klogit_apply, kfeat_apply]
  rfl

/-- Entry `(r, c)` of the block the body leaves is result `c` of image `r`. -/
theorem E4_apply (x0 : Vec Ideal S2048x28x28 .f32) (x1 : Vec Ideal S4 .f32) (x2 : Vec Ideal S784x10 .f32)
    (x3 : Vec Ideal S10 .f32) (r : Fin 2048) (c : Fin 10) :
    Cert.KernelIdeal.Value.E4 (F := Ideal) x0 x1 x2 x3 (ix2 r c)
      = Cert.Quanv.rowOut (fun a a' => x0 (ix3 r a a')) (fun j => x1 (ix1 j)) (fun k c' => x2 (ix2 k c')) (fun c' => x3 (ix1 c')) c := by
  have e0 : Cert.KernelIdeal.Value.ix4_0 (ix2 r c) = ix2 r c :=
    funext fun a => Fin.ext (by match a with | ⟨0, _⟩ => rfl | ⟨1, _⟩ => rfl)
  have e1 : Cert.KernelIdeal.Value.ix4_1 (ix2 r c) = ix1 r :=
    funext fun a => Fin.ext (by match a with | ⟨0, _⟩ => rfl)
  show (k0_pay2 (F := Ideal) x0 x1 x2 x3 (Cert.KernelIdeal.Value.ix4_0 (ix2 r c)))
      - Ideal.log (multiReduction .add [1] S2048 (exp (k0_pay2 (F := Ideal) x0 x1 x2 x3)) 0x00000000#32 reduces_S2048x10_S2048 (.inl rfl) rfl (Cert.KernelIdeal.Value.ix4_1 (ix2 r c))) = _
  rw [e0, e1, shifted_apply]
  unfold Cert.Quanv.rowOut Cert.Quanv.logSoftmax
  refine congrArg₂ (· - ·) rfl (congrArg Ideal.log ?_)
  refine (Cert.LibRowOps.rowSum_apply (exp (k0_pay2 (F := Ideal) x0 x1 x2 x3)) reduces_S2048x10_S2048 (.inl rfl) rfl r).trans ?_
  refine Finset.sum_congr rfl fun k _ => ?_
  show Ideal.exp (k0_pay2 (F := Ideal) x0 x1 x2 x3 (ix2 r k)) = _
  rw [shifted_apply]

end Cert.Quanv.KernelSide

end
-- ==== Proof.Blocks.lean ====
/-
  From the blocks the kernel writes to the whole result array.

  The grid has 32 points; point `t` reads images `2048 t … 2048 t + 2047` (block `t` of the image array along its first
  axis), the whole angle, weight and bias arrays, and writes rows `2048 t … 2048 t + 2047` of the result. The weights
  reach the kernel transposed by a host operation before the launch, so the 784 × 10 array the kernel reads at `(k, c)`
  is the weight argument at `(c, k)`. Row `p` of the block point `t` writes is the result of image `p` of its input block,
  that is of image `2048 t + p` of the argument: every point writes its rows of one whole-array function, the blocks
  cover every row, and so the array after the run is that function of the arguments.
-/
import proofs.«102247_j65481071409993_1_alg».proof.Proof.Gen.KernelIdeal.Value
import proofs.«102247_j65481071409993_1_alg».proof.Proof.KernelValue
import Idealize.ShloMosaic.Lib.Pipeline.Value
import Idealize.ShloMosaic.Lib.StableHlo.Run

noncomputable section

namespace Cert.Quanv.KernelSide

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The array the weights window stages, as the region finds it: the weight argument transposed. -/
theorem V_weights (c : Dev nD) :
    (V m c main_v0 : S784x10.Idx → EReal) = transpose S784x10 [1, 0] (m ((c : Thread nD τ).loc main_arg2)) transposes_S10x784_S784x10_1_0 := by
  dsimp only [Gen.V, Gen.hostOps0]
  after_results

/-- The zero offsets of a rank-1 whole-block load, however spelt. -/
theorem zeros1 : (![0] : Fin 1 → Nat) = fun _ => 0 := funext fun a => by fin_cases a <;> rfl

/-- The zero offsets of a rank-2 whole-block load. -/
theorem zeros2 : (![0, 0] : Fin 2 → Nat) = fun _ => 0 := funext fun a => by fin_cases a <;> rfl

/-- The zero offsets of a rank-3 whole-block load. -/
theorem zeros3 : (![0, 0, 0] : Fin 3 → Nat) = fun _ => 0 := funext fun a => by fin_cases a <;> rfl

/-- The block indices, decided over the grid's 32 points: the result and the image windows are at block `t` of their
    first axis and block `0` of the others; the angle, weight and bias windows are at block `0`. -/
theorem block_index : ∀ t : Fin cfg0.N, win0_4.index t (0 : Fin 2) = t.val ∧ win0_4.index t (1 : Fin 2) = 0
    ∧ win0_0.index t (0 : Fin 3) = t.val ∧ win0_0.index t (1 : Fin 3) = 0 ∧ win0_0.index t (2 : Fin 3) = 0
    ∧ win0_1.index t (0 : Fin 1) = 0
    ∧ win0_2.index t (0 : Fin 2) = 0 ∧ win0_2.index t (1 : Fin 2) = 0
    ∧ win0_3.index t (0 : Fin 1) = 0 :=
  (by decide +kernel : ∀ t : Fin grid0.N, _)

/-- Entry `(p, a, a')` of the image block at point `t` is entry `(2048 t + p, a, a')` of the image argument. -/
theorem image_block (c : Dev nD) (t : Fin cfg0.N) (p : Fin 2048) (a a' : Fin 28) (r : Fin 65536)
    (hr : r.val = 2048 * t.val + p.val) :
    (iblk m c 0 t : Vec Ideal S2048x28x28 .f32) (ix3 p a a')
      = (m ((c : Thread nD τ).loc main_arg0) : S65536x28x28.Idx → EReal) (ix3 r a a') := by
  obtain ⟨-, -, e0, e1, e2, -⟩ := block_index t
  refine Eq.trans ?_ (congrFun (V_main_arg0 m c) (ix3 r a a'))
  show V m c main_arg0 (((cfg0.win 0).blk t).view.emb (ix3 p a a')) = V m c main_arg0 (ix3 r a a')
  refine congrArg _ (funext fun b => Fin.ext ?_)
  match b with
  | ⟨0, _⟩ => show win0_0.index t (0 : Fin 3) * 2048 + 1 * p.val = r.val; omega
  | ⟨1, _⟩ => show win0_0.index t (1 : Fin 3) * 28 + 1 * a.val = a.val; omega
  | ⟨2, _⟩ => show win0_0.index t (2 : Fin 3) * 28 + 1 * a'.val = a'.val; omega

/-- The angle block at any point is the whole angle argument. -/
theorem angle_block (c : Dev nD) (t : Fin cfg0.N) (j : Fin 4) :
    (iblk m c 1 t : Vec Ideal S4 .f32) (ix1 j) = (m ((c : Thread nD τ).loc main_arg1) : S4.Idx → EReal) (ix1 j) := by
  obtain ⟨-, -, -, -, -, e0, -⟩ := block_index t
  refine Eq.trans ?_ (congrFun (V_main_arg1 m c) (ix1 j))
  show V m c main_arg1 (((cfg0.win 1).blk t).view.emb (ix1 j)) = V m c main_arg1 (ix1 j)
  refine congrArg _ (funext fun b => Fin.ext ?_)
  match b with
  | ⟨0, _⟩ => show win0_1.index t (0 : Fin 1) * 4 + 1 * j.val = j.val; omega

/-- The weight block at any point is the whole staged array, the weight argument transposed: its entry `(k, c')` is the
    argument's entry `(c', k)`. -/
theorem weight_block (c : Dev nD) (t : Fin cfg0.N) (k : Fin 784) (c' : Fin 10) :
    (iblk m c 2 t : Vec Ideal S784x10 .f32) (ix2 k c') = (m ((c : Thread nD τ).loc main_arg2) : S10x784.Idx → EReal) (ix2 c' k) := by
  obtain ⟨-, -, -, -, -, -, e0, e1, -⟩ := block_index t
  have hread : (iblk m c 2 t : Vec Ideal S784x10 .f32) (ix2 k c') = (V m c main_v0 : S784x10.Idx → EReal) (ix2 k c') := by
    show V m c main_v0 (((cfg0.win 2).blk t).view.emb (ix2 k c')) = V m c main_v0 (ix2 k c')
    refine congrArg _ (funext fun b => Fin.ext ?_)
    match b with
    | ⟨0, _⟩ => show win0_2.index t (0 : Fin 2) * 784 + 1 * k.val = k.val; omega
    | ⟨1, _⟩ => show win0_2.index t (1 : Fin 2) * 10 + 1 * c'.val = c'.val; omega
  refine hread.trans ?_
  refine (congrFun (V_weights m c) (ix2 k c')).trans ?_
  exact transpose_apply [1, 0] _ transposes_S10x784_S784x10_1_0 (ix2 k c') (ix2 c' k)
    (fun b => match b with | ⟨0, _⟩ => rfl | ⟨1, _⟩ => rfl)

/-- The bias block at any point is the whole bias argument. -/
theorem bias_block (c : Dev nD) (t : Fin cfg0.N) (c' : Fin 10) :
    (iblk m c 3 t : Vec Ideal S10 .f32) (ix1 c') = (m ((c : Thread nD τ).loc main_arg3) : S10.Idx → EReal) (ix1 c') := by
  obtain ⟨-, -, -, -, -, -, -, -, e0⟩ := block_index t
  refine Eq.trans ?_ (congrFun (V_main_arg3 m c) (ix1 c'))
  show V m c main_arg3 (((cfg0.win 3).blk t).view.emb (ix1 c')) = V m c main_arg3 (ix1 c')
  refine congrArg _ (funext fun b => Fin.ext ?_)
  match b with
  | ⟨0, _⟩ => show win0_3.index t (0 : Fin 1) * 10 + 1 * c'.val = c'.val; omega

/-- One image's results depend on the image, the angles, the weights and the bias only. -/
theorem rowOut_congr {X X' : Fin 28 → Fin 28 → EReal} {P P' : Fin 4 → EReal} {Wt Wt' : Fin 784 → Fin 10 → EReal}
    {B B' : Fin 10 → EReal} (hX : X = X') (hP : P = P') (hW : Wt = Wt') (hB : B = B') (q : Fin 10) :
    Cert.Quanv.rowOut X P Wt B q = Cert.Quanv.rowOut X' P' Wt' B' q := by
  subst hX hP hW hB; rfl

/-- What point `t` writes back is block `t` of the whole-array function of the arguments. -/
theorem flushed_eq (c : Dev nD) (t : Fin cfg0.N) :
    (dats m 0 c).flushed 4 t = ((cfg0.win 4).blk t).view.read (Elt Ideal) (Cert.Quanv.G (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  simp only [View.ld_unit_zero (S := S2048x28x28) zeros3, View.ld_unit_zero (S := S4) zeros1,
    View.ld_unit_zero (S := S784x10) zeros2, View.ld_unit_zero (S := S10) zeros1]
  funext j
  obtain ⟨pr, q, rfl⟩ : ∃ (pr : Fin 2048) (q : Fin 10), j = ix2 pr q := ⟨j 0, j 1, eq_ix2 j⟩
  refine (Cert.KernelIdeal.Value.canon4_eq _ _ _ _ _).trans ?_
  refine (E4_apply _ _ _ _ pr q).trans ?_
  -- row `pr` of the block is row `2048 t + pr` of the array
  obtain ⟨e0, e1, -⟩ := block_index t
  have ht : t.val < 32 := lt_of_lt_of_eq t.isLt N_0
  have hp : pr.val < 2048 := pr.isLt
  obtain ⟨r, hr⟩ : ∃ r : Fin 65536, r.val = 2048 * t.val + pr.val := ⟨⟨2048 * t.val + pr.val, by omega⟩, rfl⟩
  have hrow : ((cfg0.win 4).blk t).view.emb (ix2 pr q) = (ix2 r q : S65536x10.Idx) :=
    funext fun b => Fin.ext (by
      match b with
      | ⟨0, _⟩ => show win0_4.index t (0 : Fin 2) * 2048 + 1 * pr.val = r.val; omega
      | ⟨1, _⟩ => show win0_4.index t (1 : Fin 2) * 10 + 1 * q.val = q.val; omega)
  refine Eq.trans ?_ (congrArg (Cert.Quanv.G (m ((c : Thread nD τ).loc main_arg0)) (m ((c : Thread nD τ).loc main_arg1)) (m ((c : Thread nD τ).loc main_arg2)) (m ((c : Thread nD τ).loc main_arg3))) hrow.symm)
  -- and that row's results are those of the block's image `pr`, argument by argument
  show Cert.Quanv.rowOut _ _ _ _ q
    = Cert.Quanv.rowOut (fun a a' => (m ((c : Thread nD τ).loc main_arg0) : S65536x28x28.Idx → EReal) (ix3 r a a'))
        (fun j => (m ((c : Thread nD τ).loc main_arg1) : S4.Idx → EReal) (ix1 j))
        (fun k c' => (m ((c : Thread nD τ).loc main_arg2) : S10x784.Idx → EReal) (ix2 c' k))
        (fun c' => (m ((c : Thread nD τ).loc main_arg3) : S10.Idx → EReal) (ix1 c')) q
  exact rowOut_congr (funext fun a => funext fun a' => image_block m c t pr a a' r hr)
    (funext fun j => angle_block m c t j) (funext fun k => funext fun c' => weight_block m c t k c')
    (funext fun c' => bias_block m c t c') q

/-- An index of the result array is in point `t`'s block iff each coordinate is in the block's range on its axis. -/
theorem mem_block (t : Fin cfg0.N) (i : S65536x10.Idx) :
    i ∈ ((cfg0.win 4).blk t).view.set ↔ ∀ a : Fin 2, win0_4.index t a * S2048x10.size a ≤ (i a).val ∧ (i a).val < win0_4.index t a * S2048x10.size a + S2048x10.size a := by
  show i ∈ ((View.whole main_v1).slice (win0_4.rect t)).set ↔ _
  rw [View.set_slice_whole, Rect.mem_set_unit]
  exact Iff.rfl

/-- The blocks cover the result array: row `i 0` lies in the block of point `(i 0) / 2048`, which writes back. -/
theorem blocks_cover (i : S65536x10.Idx) :
    ∃ t : Fin cfg0.N, (cfg0.win 4).flush t = true ∧ i ∈ ((cfg0.win 4).blk t).view.set := by
  have h0 : (i 0).val < 65536 := (i 0).isLt
  have h1 : (i 1).val < 10 := (i 1).isLt
  obtain ⟨t, ht⟩ : ∃ t : Fin cfg0.N, t.val = (i 0).val / 2048 :=
    ⟨⟨(i 0).val / 2048, lt_of_lt_of_eq (by omega : (i 0).val / 2048 < 32) N_0.symm⟩, rfl⟩
  obtain ⟨e0, e1, -⟩ := block_index t
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 10 ≤ (i 1).val ∧ (i 1).val < win0_4.index t (1 : Fin 2) * 10 + 10; omega

/-- The result array after the run is the whole-array function of the arguments. -/
theorem final (c : Dev nD) : (dats m 0 c).arrAt 4 cfg0.N = (Cert.Quanv.G (m ((c : Thread nD τ).loc main_arg0)) (m ((c : Thread nD τ).loc main_arg1)) (m ((c : Thread nD τ).loc main_arg2)) (m ((c : Thread nD τ).loc main_arg3))) := by
  exact (dats m 0 c).arrAt_eq_of_cover 4 _ (fun t _ => flushed_eq m c t) blocks_cover

/-- The kernel's run: it ends with the result array at the function of the arguments, the arguments unchanged. -/
theorem run : θ_run defs (onTc (τ := τ) (main (F := Ideal))) ⟨m, fun _ => 0, ρ⟩ fun r => ∀ c : Dev nD,
      r.2.mem ((c : Thread nD τ).loc main_v1) = (Cert.Quanv.G (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Quanv.KernelSide

end
-- ==== Proof.RefFeatLayout.lean ====
/-
  The reference's stages below its feature matrix, read at an index.  Its cosine stage has one entry per image `r`,
  patch `q = 14 h + w` and pixel `j = 2 i + i'` of the patch: the cosine of pixel `(2 h + i, 2 w + i')` of image `r` plus
  angle `j`.  The four pieces that the program lays end to end are, at patch `q`, the patch's four features.
-/
import proofs.«102247_j65481071409993_1_alg».proof.Proof.ReadP
import proofs.«102247_j65481071409993_1_alg».proof.Proof.Spec
import Idealize.ShloMosaic.Lib.Pipeline.Value
import Idealize.ShloMosaic.Lib.ValueIdx
import Idealize.ShloMosaic.PureOps.Ideal.Laws

noncomputable section

namespace Cert.Quanv.RefSide

open Cert.ReferenceIdeal Cert.ReferenceIdeal.ReadP
open Idealize.ShloMosaic Idealize.ShloMosaic.ValueIdx

/-- The cosine stage at `(r, q, j)`: the two reshapes and the transpose between them send `(r, q, j)` to pixel
    `(2 (q / 14) + j / 2, 2 (q % 14) + j % 2)` of image `r`, and the broadcast angles read angle `j`.  With
    `L = (196 r + q) · 4 + j` the flat position, the five coordinates of the middle shape are `L / 784 = r`,
    `L / 56 % 14 = q / 14`, `L / 4 % 14 = q % 14`, `L / 2 % 2 = j / 2`, `L % 2 = j % 2`. -/
theorem cos_stage_at (x : (⟨S65536x28x28, .f32⟩ : BufTy).Contents (Elt Ideal)) (p : (⟨S4, .f32⟩ : BufTy).Contents (Elt Ideal))
    (r : Fin 65536) (q : Fin 196) (j : Fin 4) :
    val_main_v6 (F := Ideal) x p (ix3 r q j) =
      Ideal.cos (x (ix3 r (⟨2 * (q.val / 14) + j.val / 2, by have := q.isLt; have := j.isLt; omega⟩ : Fin 28)
          (⟨2 * (q.val % 14) + j.val % 2, by have := q.isLt; have := j.isLt; omega⟩ : Fin 28)) + p (ix1 j)) := by
  rw [val_main_v6_apply, val_main_v5_apply, val_main_v2_apply, val_main_v1_apply, val_main_v0_apply,
    val_main_v4_apply, val_main_v3_apply]
  have hr := r.isLt
  have hq := q.isLt
  have hj := j.isLt
  have e1 : ((r.val * 196 + q.val) * 4 + j.val) / 784 = r.val := by omega
  have e2 : ((r.val * 196 + q.val) * 4 + j.val) / 56 % 14 = q.val / 14 := by omega
  have e3 : ((r.val * 196 + q.val) * 4 + j.val) / 2 % 2 = j.val / 2 := by omega
  have e4 : ((r.val * 196 + q.val) * 4 + j.val) / 4 % 14 = q.val % 14 := by omega
  have e5 : ((r.val * 196 + q.val) * 4 + j.val) % 2 = j.val % 2 := by omega
  have hx : idx_main_v0 (idx_main_v1 (idx_main_v2 (ix3 r q j))) =
      ix3 r (⟨2 * (q.val / 14) + j.val / 2, by omega⟩ : Fin 28) (⟨2 * (q.val % 14) + j.val % 2, by omega⟩ : Fin 28) :=
    funext fun a => Fin.ext (by
      match a with
      | ⟨0, _⟩ =>
        show ((((((r.val * 196 + q.val) * 4 + j.val) / 784 * 14 + ((r.val * 196 + q.val) * 4 + j.val) / 56 % 14) * 2 + ((r.val * 196 + q.val) * 4 + j.val) / 2 % 2) * 14 + ((r.val * 196 + q.val) * 4 + j.val) / 4 % 14) * 2 + ((r.val * 196 + q.val) * 4 + j.val) % 2) / 784 = r.val
        rw [e1, e2, e3, e4, e5]; clear e1 e2 e3 e4 e5; omega
      | ⟨1, _⟩ =>
        show ((((((r.val * 196 + q.val) * 4 + j.val) / 784 * 14 + ((r.val * 196 + q.val) * 4 + j.val) / 56 % 14) * 2 + ((r.val * 196 + q.val) * 4 + j.val) / 2 % 2) * 14 + ((r.val * 196 + q.val) * 4 + j.val) / 4 % 14) * 2 + ((r.val * 196 + q.val) * 4 + j.val) % 2) / 28 % 28 = 2 * (q.val / 14) + j.val / 2
        rw [e1, e2, e3, e4, e5]; clear e1 e2 e3 e4 e5; omega
      | ⟨2, _⟩ =>
        show ((((((r.val * 196 + q.val) * 4 + j.val) / 784 * 14 + ((r.val * 196 + q.val) * 4 + j.val) / 56 % 14) * 2 + ((r.val * 196 + q.val) * 4 + j.val) / 2 % 2) * 14 + ((r.val * 196 + q.val) * 4 + j.val) / 4 % 14) * 2 + ((r.val * 196 + q.val) * 4 + j.val) % 2) % 28 = 2 * (q.val % 14) + j.val % 2
        rw [e1, e2, e3, e4, e5]; clear e1 e2 e3 e4 e5; omega)
  have hp : idx_main_v3 (idx_main_v4 (ix3 r q j)) = ix1 j :=
    funext fun a => match a with | ⟨0, _⟩ => rfl
  rw [hx, hp]
  rfl

/-- Column `0` of the cosine stage, sliced out and reshaped to one entry per patch. -/
theorem slice0_at (x : (⟨S65536x28x28, .f32⟩ : BufTy).Contents (Elt Ideal)) (p : (⟨S4, .f32⟩ : BufTy).Contents (Elt Ideal))
    (r : Fin 65536) (q : Fin 196) :
    val_main_v8 (F := Ideal) x p (ix2 r q) = val_main_v6 (F := Ideal) x p (ix3 r q (0 : Fin 4)) := by
  have hr := r.isLt
  have hq := q.isLt
  rw [val_main_v8_apply, val_main_v7_apply]
  exact congrArg (val_main_v6 (F := Ideal) x p) (funext fun a => Fin.ext (by
    match a with
    | ⟨0, _⟩ => show (r.val * 196 + q.val) / 196 = r.val; omega
    | ⟨1, _⟩ => show (r.val * 196 + q.val) / 1 % 196 = q.val; omega
    | ⟨2, _⟩ => show (0 : Nat) = 0; rfl))

/-- Column `0` of the cosine stage, sliced out and reshaped to one entry per patch. -/
theorem slice0'_at (x : (⟨S65536x28x28, .f32⟩ : BufTy).Contents (Elt Ideal)) (p : (⟨S4, .f32⟩ : BufTy).Contents (Elt Ideal))
    (r : Fin 65536) (q : Fin 196) :
    val_main_v10 (F := Ideal) x p (ix2 r q) = val_main_v6 (F := Ideal) x p (ix3 r q (0 : Fin 4)) := by
  have hr := r.isLt
  have hq := q.isLt
  rw [val_main_v10_apply, val_main_v9_apply]
  exact congrArg (val_main_v6 (F := Ideal) x p) (funext fun a => Fin.ext (by
    match a with
    | ⟨0, _⟩ => show (r.val * 196 + q.val) / 196 = r.val; omega
    | ⟨1, _⟩ => show (r.val * 196 + q.val) / 1 % 196 = q.val; omega
    | ⟨2, _⟩ => show (0 : Nat) = 0; rfl))

/-- Column `1` of the cosine stage, sliced out and reshaped to one entry per patch. -/
theorem slice1_at (x : (⟨S65536x28x28, .f32⟩ : BufTy).Contents (Elt Ideal)) (p : (⟨S4, .f32⟩ : BufTy).Contents (Elt Ideal))
    (r : Fin 65536) (q : Fin 196) :
    val_main_v12 (F := Ideal) x p (ix2 r q) = val_main_v6 (F := Ideal) x p (ix3 r q (1 : Fin 4)) := by
  have hr := r.isLt
  have hq := q.isLt
  rw [val_main_v12_apply, val_main_v11_apply]
  exact congrArg (val_main_v6 (F := Ideal) x p) (funext fun a => Fin.ext (by
    match a with
    | ⟨0, _⟩ => show (r.val * 196 + q.val) / 196 = r.val; omega
    | ⟨1, _⟩ => show (r.val * 196 + q.val) / 1 % 196 = q.val; omega
    | ⟨2, _⟩ => show 1 + 0 = 1; rfl))

/-- Column `2` of the cosine stage, sliced out and reshaped to one entry per patch. -/
theorem slice2_at (x : (⟨S65536x28x28, .f32⟩ : BufTy).Contents (Elt Ideal)) (p : (⟨S4, .f32⟩ : BufTy).Contents (Elt Ideal))
    (r : Fin 65536) (q : Fin 196) :
    val_main_v15 (F := Ideal) x p (ix2 r q) = val_main_v6 (F := Ideal) x p (ix3 r q (2 : Fin 4)) := by
  have hr := r.isLt
  have hq := q.isLt
  rw [val_main_v15_apply, val_main_v14_apply]
  exact congrArg (val_main_v6 (F := Ideal) x p) (funext fun a => Fin.ext (by
    match a with
    | ⟨0, _⟩ => show (r.val * 196 + q.val) / 196 = r.val; omega
    | ⟨1, _⟩ => show (r.val * 196 + q.val) / 1 % 196 = q.val; omega
    | ⟨2, _⟩ => show 2 + 0 = 2; rfl))

/-- Column `2` of the cosine stage, sliced out and reshaped to one entry per patch. -/
theorem slice2'_at (x : (⟨S65536x28x28, .f32⟩ : BufTy).Contents (Elt Ideal)) (p : (⟨S4, .f32⟩ : BufTy).Contents (Elt Ideal))
    (r : Fin 65536) (q : Fin 196) :
    val_main_v17 (F := Ideal) x p (ix2 r q) = val_main_v6 (F := Ideal) x p (ix3 r q (2 : Fin 4)) := by
  have hr := r.isLt
  have hq := q.isLt
  rw [val_main_v17_apply, val_main_v16_apply]
  exact congrArg (val_main_v6 (F := Ideal) x p) (funext fun a => Fin.ext (by
    match a with
    | ⟨0, _⟩ => show (r.val * 196 + q.val) / 196 = r.val; omega
    | ⟨1, _⟩ => show (r.val * 196 + q.val) / 1 % 196 = q.val; omega
    | ⟨2, _⟩ => show 2 + 0 = 2; rfl))

/-- Column `3` of the cosine stage, sliced out and reshaped to one entry per patch. -/
theorem slice3_at (x : (⟨S65536x28x28, .f32⟩ : BufTy).Contents (Elt Ideal)) (p : (⟨S4, .f32⟩ : BufTy).Contents (Elt Ideal))
    (r : Fin 65536) (q : Fin 196) :
    val_main_v19 (F := Ideal) x p (ix2 r q) = val_main_v6 (F := Ideal) x p (ix3 r q (3 : Fin 4)) := by
  have hr := r.isLt
  have hq := q.isLt
  rw [val_main_v19_apply, val_main_v18_apply]
  exact congrArg (val_main_v6 (F := Ideal) x p) (funext fun a => Fin.ext (by
    match a with
    | ⟨0, _⟩ => show (r.val * 196 + q.val) / 196 = r.val; omega
    | ⟨1, _⟩ => show (r.val * 196 + q.val) / 1 % 196 = q.val; omega
    | ⟨2, _⟩ => show 3 + 0 = 3; rfl))

/-- The first piece at patch `q`: column 0 of the cosine stage. -/
theorem piece0_at (x : (⟨S65536x28x28, .f32⟩ : BufTy).Contents (Elt Ideal)) (p : (⟨S4, .f32⟩ : BufTy).Contents (Elt Ideal)) (r : Fin 65536) (q : Fin 196) :
    val_main_v21 (F := Ideal) x p (ix3 r q (0 : Fin 1)) = val_main_v6 (F := Ideal) x p (ix3 r q (0 : Fin 4)) := by
  rw [val_main_v21_apply]
  exact slice0_at x p r q

/-- The second piece at patch `q`: the product of columns 0 and 1 of the cosine stage. -/
theorem piece1_at (x : (⟨S65536x28x28, .f32⟩ : BufTy).Contents (Elt Ideal)) (p : (⟨S4, .f32⟩ : BufTy).Contents (Elt Ideal)) (r : Fin 65536) (q : Fin 196) :
    val_main_v22 (F := Ideal) x p (ix3 r q (0 : Fin 1)) =
      val_main_v6 (F := Ideal) x p (ix3 r q (0 : Fin 4)) * val_main_v6 (F := Ideal) x p (ix3 r q (1 : Fin 4)) := by
  rw [val_main_v22_apply, val_main_v13_apply]
  exact congrArg₂ (· * ·) (slice0'_at x p r q) (slice1_at x p r q)

/-- The third piece at patch `q`: column 2 of the cosine stage. -/
theorem piece2_at (x : (⟨S65536x28x28, .f32⟩ : BufTy).Contents (Elt Ideal)) (p : (⟨S4, .f32⟩ : BufTy).Contents (Elt Ideal)) (r : Fin 65536) (q : Fin 196) :
    val_main_v23 (F := Ideal) x p (ix3 r q (0 : Fin 1)) = val_main_v6 (F := Ideal) x p (ix3 r q (2 : Fin 4)) := by
  rw [val_main_v23_apply]
  exact slice2_at x p r q

/-- The fourth piece at patch `q`: the product of columns 2 and 3 of the cosine stage. -/
theorem piece3_at (x : (⟨S65536x28x28, .f32⟩ : BufTy).Contents (Elt Ideal)) (p : (⟨S4, .f32⟩ : BufTy).Contents (Elt Ideal)) (r : Fin 65536) (q : Fin 196) :
    val_main_v24 (F := Ideal) x p (ix3 r q (0 : Fin 1)) =
      val_main_v6 (F := Ideal) x p (ix3 r q (2 : Fin 4)) * val_main_v6 (F := Ideal) x p (ix3 r q (3 : Fin 4)) := by
  rw [val_main_v24_apply, val_main_v20_apply]
  exact congrArg₂ (· * ·) (slice2'_at x p r q) (slice3_at x p r q)

/-- The cosine stage at `(r, q, j)` with the pixel given as any pair `(a, b)` of the right values. -/
theorem cos_stage_pixel (x : (⟨S65536x28x28, .f32⟩ : BufTy).Contents (Elt Ideal)) (p : (⟨S4, .f32⟩ : BufTy).Contents (Elt Ideal)) (r : Fin 65536) (q : Fin 196) (j : Fin 4) (a b : Fin 28)
    (ha : a.val = 2 * (q.val / 14) + j.val / 2) (hb : b.val = 2 * (q.val % 14) + j.val % 2) :
    val_main_v6 (F := Ideal) x p (ix3 r q j) = Ideal.cos (x (ix3 r a b) + p (ix1 j)) := by
  obtain ⟨a, ha'⟩ := a
  obtain ⟨b, hb'⟩ := b
  simp only at ha hb
  subst ha hb
  exact cos_stage_at x p r q j

/-- Piece `g` at patch `q = 14 h + w` is feature `g` of patch `(h, w) = (q / 14, q % 14)`: pixel `j` of the patch is
    `(2 h + j / 2, 2 w + j % 2)`, the even or odd row and column of the patch. -/
theorem pieces_at (x : (⟨S65536x28x28, .f32⟩ : BufTy).Contents (Elt Ideal)) (p : (⟨S4, .f32⟩ : BufTy).Contents (Elt Ideal)) (r : Fin 65536) (q : Fin 196) (g : Fin 4) :
    (![val_main_v21 (F := Ideal) x p, val_main_v22 (F := Ideal) x p, val_main_v23 (F := Ideal) x p,
        val_main_v24 (F := Ideal) x p] : Fin 4 → S65536x196x1.Idx → EReal) g (ix3 r q (0 : Fin 1)) =
      Cert.Quanv.patchFeat (fun a a' => x (ix3 r a a')) (fun j => p (ix1 j))
        (⟨q.val / 14, by have := q.isLt; omega⟩ : Fin 14) (⟨q.val % 14, by omega⟩ : Fin 14) g := by
  have hq := q.isLt
  match g with
  | ⟨0, _⟩ =>
    show val_main_v21 (F := Ideal) x p (ix3 r q (0 : Fin 1)) = _
    rw [piece0_at]
    exact cos_stage_pixel x p r q 0 _ _ (by show 2 * (q.val / 14) = 2 * (q.val / 14) + 0 / 2; omega)
      (by show 2 * (q.val % 14) = 2 * (q.val % 14) + 0 % 2; omega)
  | ⟨1, _⟩ =>
    show val_main_v22 (F := Ideal) x p (ix3 r q (0 : Fin 1)) = _
    rw [piece1_at]
    exact congrArg₂ (· * ·)
      (cos_stage_pixel x p r q 0 _ _ (by show 2 * (q.val / 14) = 2 * (q.val / 14) + 0 / 2; omega)
        (by show 2 * (q.val % 14) = 2 * (q.val % 14) + 0 % 2; omega))
      (cos_stage_pixel x p r q 1 _ _ (by show 2 * (q.val / 14) = 2 * (q.val / 14) + 1 / 2; omega)
        (by show 2 * (q.val % 14) + 1 = 2 * (q.val % 14) + 1 % 2; omega))
  | ⟨2, _⟩ =>
    show val_main_v23 (F := Ideal) x p (ix3 r q (0 : Fin 1)) = _
    rw [piece2_at]
    exact cos_stage_pixel x p r q 2 _ _ (by show 2 * (q.val / 14) + 1 = 2 * (q.val / 14) + 2 / 2; omega)
      (by show 2 * (q.val % 14) = 2 * (q.val % 14) + 2 % 2; omega)
  | ⟨3, _⟩ =>
    show val_main_v24 (F := Ideal) x p (ix3 r q (0 : Fin 1)) = _
    rw [piece3_at]
    exact congrArg₂ (· * ·)
      (cos_stage_pixel x p r q 2 _ _ (by show 2 * (q.val / 14) + 1 = 2 * (q.val / 14) + 2 / 2; omega)
        (by show 2 * (q.val % 14) = 2 * (q.val % 14) + 2 % 2; omega))
      (cos_stage_pixel x p r q 3 _ _ (by show 2 * (q.val / 14) + 1 = 2 * (q.val / 14) + 3 / 2; omega)
        (by show 2 * (q.val % 14) + 1 = 2 * (q.val % 14) + 3 % 2; omega))

end Cert.Quanv.RefSide

end
-- ==== Proof.RefFeat.lean ====
/-
  The features the reference computes from the whole image array, read at an index: entry `(r, k)` of its
  65536 × 784 feature matrix is feature `k` of image `r`.
-/
import proofs.«102247_j65481071409993_1_alg».proof.Proof.ReadP
import proofs.«102247_j65481071409993_1_alg».proof.Proof.LibConcat4
import proofs.«102247_j65481071409993_1_alg».proof.Proof.Spec
import proofs.«102247_j65481071409993_1_alg».proof.Proof.RefFeatLayout
import Idealize.ShloMosaic.Lib.Pipeline.Value
import Idealize.ShloMosaic.Lib.ValueIdx
import Idealize.ShloMosaic.PureOps.Ideal.Laws

noncomputable section

namespace Cert.Quanv.RefSide

open Cert.ReferenceIdeal Cert.ReferenceIdeal.ReadP
open Idealize.ShloMosaic Idealize.ShloMosaic.ValueIdx

/-- Entry `(r, k)` of the reference's feature matrix is feature `k` of image `r`: the last reshape reads the
    concatenation at `(r, k / 4, k % 4)`, which is piece `k % 4` at patch `k / 4`, and `k / 4 / 14 = k / 56`. -/
theorem ref_feat_apply (x : (⟨S65536x28x28, .f32⟩ : BufTy).Contents (Elt Ideal)) (p : (⟨S4, .f32⟩ : BufTy).Contents (Elt Ideal)) (r : Fin 65536) (k : Fin 784) :
    val_main_v26 (F := Ideal) x p (ix2 r k) = Cert.Quanv.feat (fun a a' => x (ix3 r a a')) (fun j => p (ix1 j)) k := by
  have hr := r.isLt
  have hk := k.isLt
  rw [val_main_v26_apply]
  have hj : idx_main_v26 (ix2 r k) = ix3 r (⟨k.val / 4, by omega⟩ : Fin 196) (⟨k.val % 4, by omega⟩ : Fin 4) :=
    funext fun a => Fin.ext (by
      match a with
      | ⟨0, _⟩ => show (r.val * 784 + k.val) / 784 = r.val; omega
      | ⟨1, _⟩ => show (r.val * 784 + k.val) / 4 % 196 = k.val / 4; omega
      | ⟨2, _⟩ => show (r.val * 784 + k.val) % 4 = k.val % 4; omega)
  rw [hj]
  unfold val_main_v25
  refine (Cert.LibConcat4.concat4_at (t := S65536x196x4) (s := S65536x196x1) (2 : Fin 3)
    ![val_main_v21 (F := Ideal) x p, val_main_v22 (F := Ideal) x p, val_main_v23 (F := Ideal) x p,
      val_main_v24 (F := Ideal) x p]
    Cert.ReferenceIdeal.Gen.concatenates_S65536x196x1_S65536x196x1_S65536x196x1_S65536x196x1_S65536x196x4_d2 rfl 1 rfl
    (ix3 r (⟨k.val / 4, by omega⟩ : Fin 196) (⟨k.val % 4, by omega⟩ : Fin 4)) (⟨k.val % 4, by omega⟩ : Fin 4)
    (ix3 r (⟨k.val / 4, by omega⟩ : Fin 196) (0 : Fin 1))
    (fun b => match b with
      | ⟨0, _⟩ => fun _ => rfl
      | ⟨1, _⟩ => fun _ => rfl
      | ⟨2, _⟩ => fun h => absurd rfl h)
    (by show k.val % 4 * 1 + 0 = k.val % 4; omega)).trans ?_
  refine (pieces_at x p r (⟨k.val / 4, by omega⟩ : Fin 196) (⟨k.val % 4, by omega⟩ : Fin 4)).trans ?_
  have h56 : (⟨k.val / 4 / 14, by omega⟩ : Fin 14) = ⟨k.val / 56, by omega⟩ := Fin.ext (by show k.val / 4 / 14 = k.val / 56; omega)
  show Cert.Quanv.patchFeat _ _ (⟨k.val / 4 / 14, by omega⟩ : Fin 14) _ _ = _
  rw [h56]
  rfl

end Cert.Quanv.RefSide

end
-- ==== Proof.RefRow.lean ====
/-
  The reference's result read at an index: entry `(r, c)` is result `c` of image `r`.

  After the features the reference multiplies by the transposed weights (a sum over the 784 features), adds the bias
  repeated down the rows, and takes the log-softmax of every row: the row's maximum (a fold of `max` from the pattern of
  `-∞`, then once more the larger of that pattern and the fold, which changes nothing: the fold is already at least
  its starting value), the shifted logits, the sum of their exponentials from zero, its logarithm, and the difference.
-/
import proofs.«102247_j65481071409993_1_alg».proof.Proof.RefFeat
import proofs.«102247_j65481071409993_1_alg».proof.Proof.Spec
import Idealize.ShloMosaic.Lib.Pipeline.Value
import Idealize.ShloMosaic.Lib.ValueIdx
import Idealize.ShloMosaic.PureOps.Ideal.Laws

noncomputable section

namespace Cert.Quanv.RefSide

open Cert.ReferenceIdeal Cert.ReferenceIdeal.Gen Cert.ReferenceIdeal.ReadP
open Idealize.ShloMosaic Idealize.ShloMosaic.ValueIdx

/-- Logit `(r, c)` of the reference. -/
theorem ref_logit_apply (x : (⟨S65536x28x28, .f32⟩ : BufTy).Contents (Elt Ideal)) (p : (⟨S4, .f32⟩ : BufTy).Contents (Elt Ideal))
    (W : (⟨S10x784, .f32⟩ : BufTy).Contents (Elt Ideal)) (b : (⟨S10, .f32⟩ : BufTy).Contents (Elt Ideal)) (r : Fin 65536) (c : Fin 10) :
    val_main_v31 (F := Ideal) x p W b (ix2 r c) = (Cert.Quanv.logit (fun a a' => x (ix3 r a a')) (fun j => p (ix1 j)) (fun k c' => W (ix2 c' k)) (fun c' => b (ix1 c'))) c := by
  rw [val_main_v31_apply, val_main_v28_apply, val_main_v30_apply, val_main_v29_apply]
  unfold Cert.Quanv.logit
  refine congrArg₂ (· + ·) (Finset.sum_congr rfl fun k _ => ?_) (congrArg b ?_)
  · have el : lidx_main_v28 (ix2 r c) k = ix2 r k :=
      funext fun a => Fin.ext (by match a with | ⟨0, _⟩ => rfl | ⟨1, _⟩ => rfl)
    have er : idx_main_v27 (ridx_main_v28 (ix2 r c) k) = ix2 c k :=
      funext fun a => Fin.ext (by match a with | ⟨0, _⟩ => rfl | ⟨1, _⟩ => rfl)
    rw [el, ref_feat_apply, val_main_v27_apply, er]
  · exact funext fun a => Fin.ext (by match a with | ⟨0, _⟩ => rfl)

/-- The row maximum the reference subtracts: taking once more the larger of the starting value and the fold changes
    nothing. -/
theorem ref_max_apply (x : (⟨S65536x28x28, .f32⟩ : BufTy).Contents (Elt Ideal)) (p : (⟨S4, .f32⟩ : BufTy).Contents (Elt Ideal))
    (W : (⟨S10x784, .f32⟩ : BufTy).Contents (Elt Ideal)) (b : (⟨S10, .f32⟩ : BufTy).Contents (Elt Ideal)) (r : Fin 65536) :
    val_main_call0_v2 (F := Ideal) x p W b (ix1 r) = Cert.Quanv.rowMax (Cert.Quanv.logit (fun a a' => x (ix3 r a a')) (fun j => p (ix1 j)) (fun k c' => W (ix2 c' k)) (fun c' => b (ix1 c'))) := by
  have h0 : val_main_call0_v0 (F := Ideal) x p W b (ix1 r) = Cert.Quanv.rowMax (Cert.Quanv.logit (fun a a' => x (ix3 r a a')) (fun j => p (ix1 j)) (fun k c' => W (ix2 c' k)) (fun c' => b (ix1 c'))) := by
    unfold val_main_call0_v0
    rw [Host.reduce_eq_fold_single FloatOps.maximumf _ _ reducesTo_S65536x10_S65536_d1 (by decide) h_S_ (ix1 r)]
    unfold Cert.Quanv.rowMax
    refine Finset.fold_congr fun k _ => ?_
    show val_main_v31 (F := Ideal) x p W b _ = _
    rw [← ref_logit_apply x p W b r k]
    exact congrArg _ (funext fun a => Fin.ext (by match a with | ⟨0, _⟩ => rfl | ⟨1, _⟩ => rfl))
  rw [val_main_call0_v2_apply, val_main_call0_v1_apply, val_main_call0_cst_0_apply, h0]
  exact max_eq_right ((Finset.le_fold_max _).mpr (Or.inl le_rfl))

/-- The shifted logit `(r, c)` of the reference. -/
theorem ref_shifted_apply (x : (⟨S65536x28x28, .f32⟩ : BufTy).Contents (Elt Ideal)) (p : (⟨S4, .f32⟩ : BufTy).Contents (Elt Ideal))
    (W : (⟨S10x784, .f32⟩ : BufTy).Contents (Elt Ideal)) (b : (⟨S10, .f32⟩ : BufTy).Contents (Elt Ideal)) (r : Fin 65536) (c : Fin 10) :
    val_main_call0_v5 (F := Ideal) x p W b (ix2 r c) = (Cert.Quanv.logit (fun a a' => x (ix3 r a a')) (fun j => p (ix1 j)) (fun k c' => W (ix2 c' k)) (fun c' => b (ix1 c'))) c - Cert.Quanv.rowMax (Cert.Quanv.logit (fun a a' => x (ix3 r a a')) (fun j => p (ix1 j)) (fun k c' => W (ix2 c' k)) (fun c' => b (ix1 c'))) := by
  have e : idx_main_call0_v3 (idx_main_call0_v4 (ix2 r c)) = ix1 r :=
    funext fun a => Fin.ext (by match a with | ⟨0, _⟩ => rfl)
  rw [val_main_call0_v5_apply, val_main_call0_v4_apply, val_main_call0_v3_apply, e, ref_max_apply, ref_logit_apply]
  rfl

/-- Entry `(r, c)` of the reference's result is result `c` of image `r`. -/
theorem ref_row_apply (x : (⟨S65536x28x28, .f32⟩ : BufTy).Contents (Elt Ideal)) (p : (⟨S4, .f32⟩ : BufTy).Contents (Elt Ideal))
    (W : (⟨S10x784, .f32⟩ : BufTy).Contents (Elt Ideal)) (b : (⟨S10, .f32⟩ : BufTy).Contents (Elt Ideal)) (r : Fin 65536) (c : Fin 10) :
    val_main_v32 (F := Ideal) x p W b (ix2 r c)
      = Cert.Quanv.rowOut (fun a a' => x (ix3 r a a')) (fun j => p (ix1 j)) (fun k c' => W (ix2 c' k)) (fun c' => b (ix1 c')) c := by
  have e : idx_main_call0_v8 (idx_main_call0_v10 (ix2 r c)) = ix1 r :=
    funext fun a => Fin.ext (by match a with | ⟨0, _⟩ => rfl)
  rw [val_main_v32_apply, val_main_call0_v10_apply, val_main_call0_v9_apply, val_main_call0_v8_apply, e,
    val_main_call0_v7_apply, val_main_call0_cst_1_apply, ref_shifted_apply]
  unfold Cert.Quanv.rowOut Cert.Quanv.logSoftmax
  refine congrArg₂ (· - ·) rfl (congrArg Ideal.log ?_)
  show Ideal.ofBits .f32 0x00000000#32 + _ = _
  rw [Ideal.ofBits_zero_f32, zero_add]
  refine Finset.sum_congr rfl fun k _ => ?_
  have ek : idx_main_call0_v7 (ix1 r) k = ix2 r k :=
    funext fun a => Fin.ext (by match a with | ⟨0, _⟩ => rfl | ⟨1, _⟩ => rfl)
  rw [ek, val_main_call0_v6_apply, ref_shifted_apply]
  rfl

/-- The reference's result is the whole-array function of the arguments. -/
theorem ref_eq_G (x : (⟨S65536x28x28, .f32⟩ : BufTy).Contents (Elt Ideal)) (p : (⟨S4, .f32⟩ : BufTy).Contents (Elt Ideal))
    (W : (⟨S10x784, .f32⟩ : BufTy).Contents (Elt Ideal)) (b : (⟨S10, .f32⟩ : BufTy).Contents (Elt Ideal)) :
    val_main_v32 (F := Ideal) x p W b = Cert.Quanv.G x p W b := by
  funext i
  obtain ⟨r, c, rfl⟩ : ∃ (r : Fin 65536) (c : Fin 10), i = ix2 r c := ⟨i 0, i 1, eq_ix2 i⟩
  exact ref_row_apply x p W b r c

end Cert.Quanv.RefSide

end
-- ==== Proof.lean ====
/-
  Kernel and reference compute one function.

  Both programs take 65536 images of 28 × 28 pixels, four angles, a 10 × 784 weight array and ten biases. Every image is
  cut into 14 × 14 patches of 2 × 2 pixels; each pixel is shifted by the angle of its place in the patch and sent through
  the cosine; a patch contributes its two left cosines and, beside each, its product with the cosine to its right; the 784
  features of an image go through the linear layer (weights read transposed, plus bias), and the ten logits through a
  log-softmax taken the stable way (shift by the row's maximum, then subtract the logarithm of the sum of exponentials).
  `Proof/Spec.lean` states this as one function `G` of the four argument arrays, entry by entry, on the extended reals.

  The kernel works on 32 blocks of 2048 images: it views a block as patches by a reshape and four slices, where the
  reference reshapes, transposes and reshapes the whole array and slices the four places afterwards; the kernel joins the
  four feature planes along a new last axis, the reference along the last axis of a three-axis array; the kernel's product
  with the weights (transposed on the host before the launch) is a matrix product into zero, the reference's a
  `dot_general`; the row maximum and the row sum are lane reductions in the kernel and host reductions in the reference,
  which also takes the larger of `-∞` and the maximum once more. None of these differences changes a value: every entry of
  either result is the same expression in the same pixels, angles, weights and biases, sums taken in the same order, so no
  law of arithmetic is needed and the inputs' finiteness is never used.

  The kernel's side: `Proof/KernelFeat.lean` (the features at an index), `Proof/KernelRow.lean` (logits and shift),
  `Proof/KernelValue.lean` (an entry of an output block), `Proof/Blocks.lean` (the blocks make the whole array; the run).
  The reference's side: `Proof/RefFeat.lean` (its features at an index) and `Proof/RefRow.lean` (an entry of its result).
  Here the claims are assembled: the three frames, the idealization (nothing was rewritten), and the equality of results.
-/
import proofs.«102247_j65481071409993_1_alg».proof.Defs
import proofs.«102247_j65481071409993_1_alg».proof.Proof.Gen.Kernel
import proofs.«102247_j65481071409993_1_alg».proof.Proof.Gen.Kernel.Skeleton
import proofs.«102247_j65481071409993_1_alg».proof.Proof.Gen.Kernel.Launch
import proofs.«102247_j65481071409993_1_alg».proof.Proof.Gen.Kernel.Points
import proofs.«102247_j65481071409993_1_alg».proof.Proof.Gen.Kernel.Frame
import proofs.«102247_j65481071409993_1_alg».proof.Proof.Gen.KernelIdeal
import proofs.«102247_j65481071409993_1_alg».proof.Proof.Gen.KernelIdeal.Skeleton
import proofs.«102247_j65481071409993_1_alg».proof.Proof.Gen.KernelIdeal.Launch
import proofs.«102247_j65481071409993_1_alg».proof.Proof.Gen.KernelIdeal.Points
import proofs.«102247_j65481071409993_1_alg».proof.Proof.Gen.KernelIdeal.Frame
import proofs.«102247_j65481071409993_1_alg».proof.Proof.Gen.ReferenceIdeal
import proofs.«102247_j65481071409993_1_alg».proof.Proof.Gen.Pre_finite_inputs
import proofs.«102247_j65481071409993_1_alg».proof.Proof.Gen.KernelIdeal.Value
import proofs.«102247_j65481071409993_1_alg».proof.Proof.Blocks
import proofs.«102247_j65481071409993_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Run from memories that agree on the arguments, the idealized kernel ends with its result array at `G` of the
    arguments (the blocks it writes are the rows of `G`) and the idealized reference ends with its result at the same
    `G` (entry by entry its operations compose to `G`). -/
theorem algebraic : Cert.algebraic_KernelIdeal_ReferenceIdeal := by
  intro m ρ m' ρ' _ hagree
  refine ⟨fun c => Cert.Quanv.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.Quanv.KernelSide.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, Cert.Quanv.RefSide.ref_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
